-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg13 : FVec F S64x32 .f32) (main_arg14 : FVec F S32 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x32 .f32 := Host.absf main_arg13
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  main_v63

def fn_part2 {F : FTy → Type} [FloatOps F] (main_arg9 : FVec F S64x64 .f32) (main_arg10 : FVec F S64 .f32) (main_arg11 : FVec F S64x64 .f32) (main_arg12 : FVec F S64 .f32) (main_arg13 : FVec F S64x32 .f32) (main_arg14 : FVec F S32 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x32 .f32) (main_arg14 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x64 .f32) (main_arg1 : IVec S2x1000000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x32 .f32) (main_arg14 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S2000x64 : Shape := ⟨2, ![2000, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S1x32 : Shape := ⟨2, ![1, 32]⟩
abbrev S512x32 : Shape := ⟨2, ![512, 32]⟩

abbrev nBuf : Space → Nat
  | .hbm => 73
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x32, .f32⟩
  | .hbm, ⟨14, _⟩ => ⟨S32, .f32⟩
  | .hbm, ⟨15, _⟩ => ⟨S1x1000000, .i32⟩
  | .hbm, ⟨16, _⟩ => ⟨S1000000, .i32⟩
  | .hbm, ⟨17, _⟩ => ⟨S1x1000000, .i32⟩
  | .hbm, ⟨18, _⟩ => ⟨S1000000, .i32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x64, .f32⟩
  | .hbm, ⟨28, _⟩ => ⟨S_, .f32⟩
  | .hbm, ⟨29, _⟩ => ⟨S100000x64, .f32⟩
  | .hbm, ⟨30, _⟩ => ⟨S1000000x1, .i32⟩
  | .hbm, ⟨31, _⟩ => ⟨S100000x64, .f32⟩
  | .hbm, ⟨32, _⟩ => ⟨S1x64, .f32⟩
  | .hbm, ⟨33, _⟩ => ⟨S1x64, .f32⟩
  | .hbm, ⟨34, _⟩ => ⟨S100000x64, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S1x64, .f32⟩
  | .hbm, ⟨49, _⟩ => ⟨S1x64, .f32⟩
  | .hbm, ⟨50, _⟩ => ⟨S100000x64, .f32⟩
  | .hbm, ⟨51, _⟩ => ⟨S_, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S512x64, .f32⟩
  | .hbm, ⟨56, _⟩ => ⟨S100000x1, .i32⟩
  | .hbm, ⟨57, _⟩ => ⟨S512x64, .f32⟩
  | .hbm, ⟨58, _⟩ => ⟨S_, .f32⟩
  | .hbm, ⟨59, _⟩ => ⟨S100000, .f32⟩
  | .hbm, ⟨60, _⟩ => ⟨S_, .f32⟩
  | .hbm, ⟨61, _⟩ => ⟨S512, .f32⟩
  | .hbm, ⟨62, _⟩ => ⟨S100000x1, .i32⟩
  | .hbm, ⟨63, _⟩ => ⟨S512, .f32⟩
  | .hbm, ⟨64, _⟩ => ⟨S_, .f32⟩
  | .hbm, ⟨65, _⟩ => ⟨S512, .f32⟩
  | .hbm, ⟨66, _⟩ => ⟨S512, .f32⟩
  | .hbm, ⟨67, _⟩ => ⟨S512x1, .f32⟩
  | .hbm, ⟨68, _⟩ => ⟨S512x64, .f32⟩
  | .hbm, ⟨69, _⟩ => ⟨S512x64, .f32⟩
  | .hbm, ⟨70, _⟩ => ⟨S1x64, .f32⟩
  | .hbm, ⟨71, _⟩ => ⟨S1x32, .f32⟩
  | .hbm, ⟨72, _⟩ => ⟨S512x32, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S512x64, .f32⟩
  | .local _ .vmem, ⟨21, _⟩ => ⟨S64x64, .f32⟩
  | .local _ .vmem, ⟨22, _⟩ => ⟨S1x64, .f32⟩
  | .local _ .vmem, ⟨23, _⟩ => ⟨S64x32, .f32⟩
  | .local _ .vmem, ⟨24, _⟩ => ⟨S1x32, .f32⟩
  | .local _ .vmem, ⟨25, _⟩ => ⟨S512x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S32_S1x32 : S32.ShapeCasts S1x32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S1x64_S512x64 : S1x64.Broadcasts S512x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  reduces_S512x32_S512 : S512x32.Reduces [1] S512
  shapeCasts_S512_S512x1 : S512.ShapeCasts S512x1
  broadcasts_S512x1_S512x32 : S512x1.Broadcasts S512x32
  inb_S512x32_S512x32_0_0 : ∀ a, (![0, 0] : Fin 2 → Nat) a + S512x32.size a ≤ S512x32.size a
  h_S512x32 : 0 < S512x32.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S2000x64_S64x64_S2000x64_1_0_0_1_n_n_wf : DotDims.WF S2000x64 S64x64 S2000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x64_S512x64_1_0_0_1_n_n_wf : DotDims.WF S512x64 S64x64 S512x64 [1] [0] [0] [1] [] []
  dot_S512x64_S64x32_S512x32_1_0_0_1_n_n_wf : DotDims.WF S512x64 S64x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S512x64.size a
  hwx2_0 : ∀ i : grid2.Coords, EltTy.bits .f32 = 32 ∨ (Rect.block (s := S512x64) S512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x32.size a ≤ S512x32.size a
  hwx2_5 : ∀ i : grid2.Coords, EltTy.bits .f32 = 32 ∨ (Rect.block (s := S512x32) S512x32.size (cc2_transform_5 i) (hinb2_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S512x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S512x32.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x32 : Shape := ⟨2, ![512, 32]⟩
abbrev S1x32 : Shape := ⟨2, ![1, 32]⟩

abbrev nBuf : Space → Nat
  | .hbm => 118
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x32, .f32⟩
  | .hbm, ⟨14, _⟩ => ⟨S32, .f32⟩
  | .hbm, ⟨15, _⟩ => ⟨S1x1000000, .i32⟩
  | .hbm, ⟨16, _⟩ => ⟨S1000000, .i32⟩
  | .hbm, ⟨17, _⟩ => ⟨S1x1000000, .i32⟩
  | .hbm, ⟨18, _⟩ => ⟨S1000000, .i32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x64, .f32⟩
  | .hbm, ⟨28, _⟩ => ⟨S_, .f32⟩
  | .hbm, ⟨29, _⟩ => ⟨S100000x64, .f32⟩
  | .hbm, ⟨30, _⟩ => ⟨S1000000x1, .i32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S1x1000000, .i32⟩
  | .hbm, ⟨48, _⟩ => ⟨S1000000, .i32⟩
  | .hbm, ⟨49, _⟩ => ⟨S1x1000000, .i32⟩
  | .hbm, ⟨50, _⟩ => ⟨S1000000, .i32⟩
  | .hbm, ⟨51, _⟩ => ⟨S_, .i32⟩
  | .hbm, ⟨52, _⟩ => ⟨S1000000, .i32⟩
  | .hbm, ⟨53, _⟩ => ⟨S1000000, .i1⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S1000000x1, .i32⟩
  | .hbm, ⟨59, _⟩ => ⟨S1000000x64, .f32⟩
  | .hbm, ⟨60, _⟩ => ⟨S_, .f32⟩
  | .hbm, ⟨61, _⟩ => ⟨S100000x64, .f32⟩
  | .hbm, ⟨62, _⟩ => ⟨S1000000x1, .i32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S512x64, .f32⟩
  | .hbm, ⟨81, _⟩ => ⟨S100000x1, .i32⟩
  | .hbm, ⟨82, _⟩ => ⟨S512x64, .f32⟩
  | .hbm, ⟨83, _⟩ => ⟨S_, .f32⟩
  | .hbm, ⟨84, _⟩ => ⟨S100000, .f32⟩
  | .hbm, ⟨85, _⟩ => ⟨S_, .f32⟩
  | .hbm, ⟨86, _⟩ => ⟨S512, .f32⟩
  | .hbm, ⟨87, _⟩ => ⟨S100000x1, .i32⟩
  | .hbm, ⟨88, _⟩ => ⟨S512, .f32⟩
  | .hbm, ⟨89, _⟩ => ⟨S_, .f32⟩
  | .hbm, ⟨90, _⟩ => ⟨S512, .f32⟩
  | .hbm, ⟨91, _⟩ => ⟨S512, .f32⟩
  | .hbm, ⟨92, _⟩ => ⟨S512x1, .f32⟩
  | .hbm, ⟨93, _⟩ => ⟨S512x64, .f32⟩
  | .hbm, ⟨94, _⟩ => ⟨S512x64, .f32⟩
  | .hbm, ⟨95, _⟩ => ⟨S512x64, .f32⟩
  | .hbm, ⟨96, _⟩ => ⟨S1x64, .f32⟩
  | .hbm, ⟨97, _⟩ => ⟨S512x64, .f32⟩
  | .hbm, ⟨98, _⟩ => ⟨S512x64, .f32⟩
  | .hbm, ⟨99, _⟩ => ⟨S512x32, .f32⟩
  | .hbm, ⟨100, _⟩ => ⟨S1x32, .f32⟩
  | .hbm, ⟨101, _⟩ => ⟨S512x32, .f32⟩
  | .hbm, ⟨102, _⟩ => ⟨S512x32, .f32⟩
  | .hbm, ⟨103, _⟩ => ⟨S_, .f32⟩
  | .hbm, ⟨104, _⟩ => ⟨S512, .f32⟩
  | .hbm, ⟨105, _⟩ => ⟨S_, .f32⟩
  | .hbm, ⟨106, _⟩ => ⟨S512, .f32⟩
  | .hbm, ⟨107, _⟩ => ⟨S512, .f32⟩
  | .hbm, ⟨108, _⟩ => ⟨S512x1, .f32⟩
  | .hbm, ⟨109, _⟩ => ⟨S512x32, .f32⟩
  | .hbm, ⟨110, _⟩ => ⟨S512x32, .f32⟩
  | .hbm, ⟨111, _⟩ => ⟨S512x32, .f32⟩
  | .hbm, ⟨112, _⟩ => ⟨S_, .f32⟩
  | .hbm, ⟨113, _⟩ => ⟨S512, .f32⟩
  | .hbm, ⟨114, _⟩ => ⟨S512x1, .f32⟩
  | .hbm, ⟨115, _⟩ => ⟨S512x1, .f32⟩
  | .hbm, ⟨116, _⟩ => ⟨S512x32, .f32⟩
  | .hbm, ⟨117, _⟩ => ⟨S512x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_3 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call0_cst : Ref sig .tc := ⟨.hbm, 103, rfl⟩
abbrev main_call0_v0 : Ref sig .tc := ⟨.hbm, 104, rfl⟩
abbrev main_call0_cst_0 : Ref sig .tc := ⟨.hbm, 105, rfl⟩
abbrev main_call0_v1 : Ref sig .tc := ⟨.hbm, 106, rfl⟩
abbrev main_call0_v2 : Ref sig .tc := ⟨.hbm, 107, rfl⟩
abbrev main_call0_v3 : Ref sig .tc := ⟨.hbm, 108, rfl⟩
abbrev main_call0_v4 : Ref sig .tc := ⟨.hbm, 109, rfl⟩
abbrev main_call0_v5 : Ref sig .tc := ⟨.hbm, 110, rfl⟩
abbrev main_call0_v6 : Ref sig .tc := ⟨.hbm, 111, rfl⟩
abbrev main_call0_cst_1 : Ref sig .tc := ⟨.hbm, 112, rfl⟩
abbrev main_call0_v7 : Ref sig .tc := ⟨.hbm, 113, rfl⟩
abbrev main_call0_v8 : Ref sig .tc := ⟨.hbm, 114, rfl⟩
abbrev main_call0_v9 : Ref sig .tc := ⟨.hbm, 115, rfl⟩
abbrev main_call0_v10 : Ref sig .tc := ⟨.hbm, 116, rfl⟩
abbrev main_v74 : Ref sig .tc := ⟨.hbm, 117, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  reducesTo_S512x32_S512_d1 : S512x32.ReducesTo [1] S512
  h_S_ : 0 < S_.numel
  bcast_S512x1_S512x32_0_1 : S512x1.BroadcastsInDim S512x32 (![0, 1] : Fin 2 → Fin S512x32.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x64_S512x64_1_0_0_1_n_n_wf : DotDims.WF S512x64 S64x64 S512x64 [1] [0] [0] [1] [] []
  dot_S512x64_S64x32_S512x32_1_0_0_1_n_n_wf : DotDims.WF S512x64 S64x32 S512x32 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf

class Facts : Prop extends Facts₀ where

variable [Facts]
-- ==== Proof.KernelRun.lean ====
/-
  The idealized kernel's run with its two results named.

  @main is six stretches: host operations, the first node-update call, host operations, the second node-update call,
  host operations, the classifier-head call. The contents of every buffer at each boundary are a fold from the launch
  memory (`W0` … `W6`): a host stretch applies its operations' results, a call replaces its arrays by what its
  write-backs leave. Every weakly fair execution terminates with every unscoped buffer at the last boundary's
  contents; here that is read at the two result arrays as well as at the arguments.
-/
import proofs.«141180_j51711406244137_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the embedding and the class scores at the
    last boundary's contents and the arguments as launched. -/
theorem run : θ_run defs (onTc (τ := τ) (main (F := F))) ⟨m, fun _ => 0, ρ⟩ (fun r => ∀ c : Dev nD,
      r.2.mem ((c.tc : Thread nD τ).loc main_v29) = W6 m ρ c (Proc.devRef .tc main_v29)
      ∧ r.2.mem ((c.tc : Thread nD τ).loc main_v46) = W6 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       h c _ (mem_uc main_v46 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.Results

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibDense.lean ====
/-
  The body of a dense layer read at an entry, over the extended reals: a plain product into the zero matrix plus a bias
  row `[1, N]` repeated down the rows is, at the entry `(p, q)`, `∑ k, x (p, k) * w (k, q) + b (0, q)`.
-/
import Idealize.ShloMosaic.PureOps.Ideal.Laws
import Idealize.ShloMosaic.Lib.ValueIdx
import Idealize.ShloMosaic.Lib.Pipeline.Value
import proofs.«141180_j51711406244137_2_alg».proof.Proof.LibMatmul

noncomputable section

open scoped BigOperators
open Idealize.ShloMosaic Idealize.ShloMosaic.ValueIdx

namespace DenseBody

variable {M K N : ℕ}

/-- A row `[1, N]` repeated down `M` rows has, at `(p, q)`, the row's entry `q`. -/
theorem row_apply {α : Type} (b : (⟨2, ![1, N]⟩ : Shape).Idx → α)
    (h : (⟨2, ![1, N]⟩ : Shape).Broadcasts (⟨2, ![M, N]⟩ : Shape)) (p : Fin M) (q : Fin N) :
    broadcastTo (⟨2, ![M, N]⟩ : Shape) b h (ix2 p q) = b (ix2 0 q) := by
  refine broadcastTo_apply b h (ix2 p q) (ix2 0 q) fun a => ?_
  match a with
  | ⟨0, _⟩ => exact (if_pos rfl).symm
  | ⟨1, _⟩ =>
    show q.val = if N = 1 then 0 else q.val
    split
    · have := q.isLt; omega
    · rfl

/-- The product into the zero matrix plus the repeated bias row, at the entry `(p, q)`. -/
theorem apply {φ₁ φ₂ : FTy} {d : DotDims (⟨2, ![M, K]⟩ : Shape) (⟨2, ![K, N]⟩ : Shape) (⟨2, ![M, N]⟩ : Shape)}
    (hd : PlainMatmul.IsPlain d) (prec : Option ContractPrecision)
    (x : FVec Ideal (⟨2, ![M, K]⟩ : Shape) φ₁) (w : FVec Ideal (⟨2, ![K, N]⟩ : Shape) φ₂)
    (b : FVec Ideal (⟨2, ![1, N]⟩ : Shape) .f32) (hb : (⟨2, ![1, N]⟩ : Shape).Broadcasts (⟨2, ![M, N]⟩ : Shape))
    (p : Fin M) (q : Fin N) :
    addf (matmul d prec x w (constant (⟨2, ![M, N]⟩ : Shape) .f32 0x00000000#32)) (broadcastTo (⟨2, ![M, N]⟩ : Shape) b hb) (ix2 p q)
      = (∑ k : Fin K, (x (ix2 p k) : EReal) * (w (ix2 k q) : EReal)) + (b (ix2 0 q) : EReal) := by
  show FloatOps.matmul d prec x w (constant (⟨2, ![M, N]⟩ : Shape) .f32 0x00000000#32) (ix2 p q)
      + broadcastTo (⟨2, ![M, N]⟩ : Shape) b hb (ix2 p q) = _
  rw [PlainMatmul.apply hd, row_apply]

end DenseBody

end
-- ==== Proof.LibDenseActivation.lean ====
/-
  A dense layer followed by an activation, read at an entry, over the extended reals.

  The layer is a plain matrix product `[M, K] × [K, N]` into the zero matrix plus a bias row `[1, N]` repeated down the
  `M` rows, all in single precision (no narrowing of the operands).  Clamped at zero against the splat of the zero
  scalar, its entry `(p, r)` is `max (∑ k, x (p, k) * w (k, r) + b (0, r)) 0`; under the logistic function its entry
  `(p, o)` is the logistic of `∑ k, x (p, k) * w (k, o) + b (0, o)`.
-/
import Idealize.ShloMosaic.PureOps.Ideal.Laws
import Idealize.ShloMosaic.Lib.ValueIdx
import Idealize.ShloMosaic.Lib.Pipeline.Value
import proofs.«141180_j51711406244137_2_alg».proof.Proof.LibDense

noncomputable section

open scoped BigOperators
open Idealize.ShloMosaic Idealize.ShloMosaic.ValueIdx

namespace DenseActivation

/-- A dense layer clamped at zero, at the entry `(p, r)`. -/
theorem reluDense_apply {M K N : ℕ} {d : DotDims (⟨2, ![M, K]⟩ : Shape) (⟨2, ![K, N]⟩ : Shape) (⟨2, ![M, N]⟩ : Shape)}
    (hd : PlainMatmul.IsPlain d) (x : FVec Ideal ⟨2, ![M, K]⟩ .f32) (w : FVec Ideal ⟨2, ![K, N]⟩ .f32)
    (b : FVec Ideal ⟨2, ![1, N]⟩ .f32) (hb : (⟨2, ![1, N]⟩ : Shape).Broadcasts ⟨2, ![M, N]⟩) (p : Fin M) (r : Fin N) :
    maximumf (addf (matmul d none x w (constant ⟨2, ![M, N]⟩ .f32 0x00000000#32)) (broadcastTo ⟨2, ![M, N]⟩ b hb))
        (broadcast ⟨2, ![M, N]⟩ (Scalar.ofBits (F := Ideal) .f32 0x00000000#32)) (ix2 p r)
      = max ((∑ k : Fin K, (x (ix2 p k) : EReal) * (w (ix2 k r) : EReal)) + (b (ix2 0 r) : EReal)) 0 := by
  show max (addf (matmul d none x w (constant ⟨2, ![M, N]⟩ .f32 0x00000000#32)) (broadcastTo ⟨2, ![M, N]⟩ b hb) (ix2 p r))
      (Ideal.ofBits .f32 0x00000000#32) = _
  rw [DenseBody.apply hd, Ideal.ofBits_zero_f32]

/-- A dense layer followed by the logistic function, at the entry `(p, o)`. -/
theorem logisticDense_apply {M K N : ℕ} {d : DotDims (⟨2, ![M, K]⟩ : Shape) (⟨2, ![K, N]⟩ : Shape) (⟨2, ![M, N]⟩ : Shape)}
    (hd : PlainMatmul.IsPlain d) (x : FVec Ideal ⟨2, ![M, K]⟩ .f32) (w : FVec Ideal ⟨2, ![K, N]⟩ .f32)
    (b : FVec Ideal ⟨2, ![1, N]⟩ .f32) (hb : (⟨2, ![1, N]⟩ : Shape).Broadcasts ⟨2, ![M, N]⟩) (p : Fin M) (o : Fin N) :
    logistic (addf (matmul d none x w (constant ⟨2, ![M, N]⟩ .f32 0x00000000#32)) (broadcastTo ⟨2, ![M, N]⟩ b hb)) (ix2 p o)
      = Ideal.logistic ((∑ k : Fin K, (x (ix2 p k) : EReal) * (w (ix2 k o) : EReal)) + (b (ix2 0 o) : EReal)) := by
  show Ideal.logistic (addf (matmul d none x w (constant ⟨2, ![M, N]⟩ .f32 0x00000000#32)) (broadcastTo ⟨2, ![M, N]⟩ b hb) (ix2 p o)) = _
  rw [DenseBody.apply hd]

end DenseActivation

end
-- ==== Proof.LibNodeUpdate.lean ====
/-
  One graph-convolution node update over the extended reals, and the two ways the programs spell it.

  A node with feature row `x` and aggregated neighbour row `a` is sent through two dense layers:
  first `h k = max (∑ j, (x j + a j) · w₁(j,k) + b₁ k) 0`, then `o q = ∑ k, h k · w₂(k,q) + b₂ q`.
  Entry `(p, q)` of the result depends on row `p` of the two feature matrices only: that is what lets a
  tiling of the rows compute each tile by itself.

  A kernel spells the two products as matrix products accumulated into a zero matrix and repeats the bias rows
  `[1, 64]` down the rows; the host spells them as contractions with no accumulator and lays the bias rows out by a
  broadcast in dimensions. Both are the function above, entry by entry, by nothing more than the reading of a
  product as a sum over the contracted axis: no law of arithmetic is used, so the infinities need no care.
-/
import Idealize.ShloMosaic.PureOps.Ideal.Laws
import Idealize.ShloMosaic.Lib.ValueIdx
import Idealize.ShloMosaic.Lib.Pipeline.Value
import Idealize.ShloMosaic.Lib.KernelVsHost
import proofs.«141180_j51711406244137_2_alg».proof.Proof.LibDenseActivation

noncomputable section

open scoped BigOperators
open Idealize.ShloMosaic Idealize.ShloMosaic.ValueIdx

namespace Cert.NodeUpdate

/-- One dense layer's output `q` for an input row `x`. -/
def dense {K N : ℕ} (x : Fin K → EReal) (w : Fin K → Fin N → EReal) (b : Fin N → EReal) (q : Fin N) : EReal :=
  (∑ k : Fin K, x k * w k q) + b q

/-- One node's update: the sum of its row and its neighbours' row through a clamped dense layer and a dense layer. -/
def node {D : ℕ} (x a : Fin D → EReal) (w1 : Fin D → Fin D → EReal) (b1 : Fin D → EReal)
    (w2 : Fin D → Fin D → EReal) (b2 : Fin D → EReal) (q : Fin D) : EReal :=
  dense (fun k => max (dense (fun j => x j + a j) w1 b1 k) 0) w2 b2 q

variable {M D : ℕ}

/-- The update of every node of a feature matrix `[M, D]`: entry `(p, q)` is node `p`'s output `q`. -/
def layer (x a : FVec Ideal ⟨2, ![M, D]⟩ .f32) (w1 : FVec Ideal ⟨2, ![D, D]⟩ .f32) (b1 : FVec Ideal ⟨2, ![1, D]⟩ .f32)
    (w2 : FVec Ideal ⟨2, ![D, D]⟩ .f32) (b2 : FVec Ideal ⟨2, ![1, D]⟩ .f32) : FVec Ideal ⟨2, ![M, D]⟩ .f32 :=
  fun i => node (fun j => (x (ix2 (i 0) j) : EReal)) (fun j => (a (ix2 (i 0) j) : EReal)) (fun j k => (w1 (ix2 j k) : EReal))
    (fun k => (b1 (ix2 (0 : Fin 1) k) : EReal)) (fun k q => (w2 (ix2 k q) : EReal)) (fun q => (b2 (ix2 (0 : Fin 1) q) : EReal)) (i 1)

/-- The same, clamped at zero. -/
def layerRelu (x a : FVec Ideal ⟨2, ![M, D]⟩ .f32) (w1 : FVec Ideal ⟨2, ![D, D]⟩ .f32) (b1 : FVec Ideal ⟨2, ![1, D]⟩ .f32)
    (w2 : FVec Ideal ⟨2, ![D, D]⟩ .f32) (b2 : FVec Ideal ⟨2, ![1, D]⟩ .f32) : FVec Ideal ⟨2, ![M, D]⟩ .f32 :=
  fun i => max (layer x a w1 b1 w2 b2 i : EReal) 0

/-- The kernel's spelling, unclamped: products into a zero matrix, bias rows repeated down the rows. -/
theorem kernel_layer {dm : DotDims (⟨2, ![M, D]⟩ : Shape) (⟨2, ![D, D]⟩ : Shape) (⟨2, ![M, D]⟩ : Shape)} (hd : PlainMatmul.IsPlain dm)
    (x a : FVec Ideal ⟨2, ![M, D]⟩ .f32) (w1 : FVec Ideal ⟨2, ![D, D]⟩ .f32) (b1 : FVec Ideal ⟨2, ![1, D]⟩ .f32)
    (w2 : FVec Ideal ⟨2, ![D, D]⟩ .f32) (b2 : FVec Ideal ⟨2, ![1, D]⟩ .f32) (hb : (⟨2, ![1, D]⟩ : Shape).Broadcasts ⟨2, ![M, D]⟩) :
    addf (matmul dm none
        (maximumf (addf (matmul dm none (addf x a) w1 (constant ⟨2, ![M, D]⟩ .f32 0x00000000#32)) (broadcastTo ⟨2, ![M, D]⟩ b1 hb))
          (broadcast ⟨2, ![M, D]⟩ (Scalar.ofBits (F := Ideal) .f32 0x00000000#32)))
        w2 (constant ⟨2, ![M, D]⟩ .f32 0x00000000#32)) (broadcastTo ⟨2, ![M, D]⟩ b2 hb)
      = layer x a w1 b1 w2 b2 := by
  funext i
  obtain ⟨p, q, rfl⟩ : ∃ (p : Fin M) (q : Fin D), i = ix2 p q := ⟨i 0, i 1, eq_ix2 i⟩
  rw [DenseBody.apply hd]
  show _ = (∑ k : Fin D, max ((∑ j : Fin D, ((x (ix2 p j) : EReal) + (a (ix2 p j) : EReal)) * (w1 (ix2 j k) : EReal)) + (b1 (ix2 (0 : Fin 1) k) : EReal)) 0
      * (w2 (ix2 k q) : EReal)) + (b2 (ix2 (0 : Fin 1) q) : EReal)
  refine congrArg (· + (b2 (ix2 (0 : Fin 1) q) : EReal)) (Finset.sum_congr rfl fun k _ => congrArg (· * (w2 (ix2 k q) : EReal)) ?_)
  rw [DenseActivation.reluDense_apply hd]
  rfl

/-- The kernel's spelling, clamped at zero. -/
theorem kernel_layerRelu {dm : DotDims (⟨2, ![M, D]⟩ : Shape) (⟨2, ![D, D]⟩ : Shape) (⟨2, ![M, D]⟩ : Shape)} (hd : PlainMatmul.IsPlain dm)
    (x a : FVec Ideal ⟨2, ![M, D]⟩ .f32) (w1 : FVec Ideal ⟨2, ![D, D]⟩ .f32) (b1 : FVec Ideal ⟨2, ![1, D]⟩ .f32)
    (w2 : FVec Ideal ⟨2, ![D, D]⟩ .f32) (b2 : FVec Ideal ⟨2, ![1, D]⟩ .f32) (hb : (⟨2, ![1, D]⟩ : Shape).Broadcasts ⟨2, ![M, D]⟩) :
    maximumf (addf (matmul dm none
        (maximumf (addf (matmul dm none (addf x a) w1 (constant ⟨2, ![M, D]⟩ .f32 0x00000000#32)) (broadcastTo ⟨2, ![M, D]⟩ b1 hb))
          (broadcast ⟨2, ![M, D]⟩ (Scalar.ofBits (F := Ideal) .f32 0x00000000#32)))
        w2 (constant ⟨2, ![M, D]⟩ .f32 0x00000000#32)) (broadcastTo ⟨2, ![M, D]⟩ b2 hb))
        (broadcast ⟨2, ![M, D]⟩ (Scalar.ofBits (F := Ideal) .f32 0x00000000#32))
      = layerRelu x a w1 b1 w2 b2 := by
  rw [kernel_layer hd]
  funext i
  show max (layer x a w1 b1 w2 b2 i : EReal) (Ideal.ofBits .f32 0x00000000#32) = max (layer x a w1 b1 w2 b2 i : EReal) 0
  rw [Ideal.ofBits_zero_f32]

/-- A bias row laid out down `M` rows by the host's broadcast in dimensions is the kernel's repetition of it. -/
theorem hostRow_eq {N : ℕ} (b : FVec Ideal ⟨2, ![1, N]⟩ .f32) (hbc : (⟨2, ![1, N]⟩ : Shape).BroadcastsInDim ⟨2, ![M, N]⟩ ![0, 1])
    (hb : (⟨2, ![1, N]⟩ : Shape).Broadcasts ⟨2, ![M, N]⟩) :
    broadcastInDim ⟨2, ![M, N]⟩ ![0, 1] hbc b = broadcastTo ⟨2, ![M, N]⟩ b hb := by
  funext i
  obtain ⟨p, q, rfl⟩ : ∃ (p : Fin M) (q : Fin N), i = ix2 p q := ⟨i 0, i 1, eq_ix2 i⟩
  rw [broadcastInDim_oneRow_apply, DenseBody.row_apply]

/-- The host's spelling, unclamped: contractions with no accumulator, bias rows broadcast in dimensions. -/
theorem host_layer {dm : DotDims (⟨2, ![M, D]⟩ : Shape) (⟨2, ![D, D]⟩ : Shape) (⟨2, ![M, D]⟩ : Shape)} (hd : PlainMatmul.IsPlain dm)
    (x a : FVec Ideal ⟨2, ![M, D]⟩ .f32) (w1 : FVec Ideal ⟨2, ![D, D]⟩ .f32) (b1 : FVec Ideal ⟨2, ![1, D]⟩ .f32)
    (w2 : FVec Ideal ⟨2, ![D, D]⟩ .f32) (b2 : FVec Ideal ⟨2, ![1, D]⟩ .f32)
    (hbc : (⟨2, ![1, D]⟩ : Shape).BroadcastsInDim ⟨2, ![M, D]⟩ ![0, 1]) (hb : (⟨2, ![1, D]⟩ : Shape).Broadcasts ⟨2, ![M, D]⟩)
    (h0 : (⟨0, ![]⟩ : Shape).BroadcastsInDim ⟨2, ![M, D]⟩ ![]) :
    addf (Host.dotGeneral dm none
        (maximumf (addf (Host.dotGeneral dm none (addf x a) w1) (broadcastInDim ⟨2, ![M, D]⟩ ![0, 1] hbc b1))
          (broadcastInDim ⟨2, ![M, D]⟩ ![] h0 (constant ⟨0, ![]⟩ .f32 0x00000000#32)))
        w2) (broadcastInDim ⟨2, ![M, D]⟩ ![0, 1] hbc b2)
      = layer x a w1 b1 w2 b2 := by
  rw [← matmul_zero_eq_dotGeneral, ← matmul_zero_eq_dotGeneral, broadcastInDim_constant, hostRow_eq b1 hbc hb, hostRow_eq b2 hbc hb]
  exact kernel_layer hd x a w1 b1 w2 b2 hb

/-- The host's spelling, clamped at zero. -/
theorem host_layerRelu {dm : DotDims (⟨2, ![M, D]⟩ : Shape) (⟨2, ![D, D]⟩ : Shape) (⟨2, ![M, D]⟩ : Shape)} (hd : PlainMatmul.IsPlain dm)
    (x a : FVec Ideal ⟨2, ![M, D]⟩ .f32) (w1 : FVec Ideal ⟨2, ![D, D]⟩ .f32) (b1 : FVec Ideal ⟨2, ![1, D]⟩ .f32)
    (w2 : FVec Ideal ⟨2, ![D, D]⟩ .f32) (b2 : FVec Ideal ⟨2, ![1, D]⟩ .f32)
    (hbc : (⟨2, ![1, D]⟩ : Shape).BroadcastsInDim ⟨2, ![M, D]⟩ ![0, 1]) (hb : (⟨2, ![1, D]⟩ : Shape).Broadcasts ⟨2, ![M, D]⟩)
    (h0 : (⟨0, ![]⟩ : Shape).BroadcastsInDim ⟨2, ![M, D]⟩ ![]) :
    maximumf (addf (Host.dotGeneral dm none
        (maximumf (addf (Host.dotGeneral dm none (addf x a) w1) (broadcastInDim ⟨2, ![M, D]⟩ ![0, 1] hbc b1))
          (broadcastInDim ⟨2, ![M, D]⟩ ![] h0 (constant ⟨0, ![]⟩ .f32 0x00000000#32)))
        w2) (broadcastInDim ⟨2, ![M, D]⟩ ![0, 1] hbc b2))
        (broadcastInDim ⟨2, ![M, D]⟩ ![] h0 (constant ⟨0, ![]⟩ .f32 0x00000000#32))
      = layerRelu x a w1 b1 w2 b2 := by
  rw [host_layer hd x a w1 b1 w2 b2 hbc hb h0, broadcastInDim_constant]
  funext i
  show max (layer x a w1 b1 w2 b2 i : EReal) (Ideal.ofBits .f32 0x00000000#32) = max (layer x a w1 b1 w2 b2 i : EReal) 0
  rw [Ideal.ofBits_zero_f32]

/-- Row-locality: two feature matrices that agree on a row (here row `p` of a tile and row `r` of the whole) give that
    row the same update. -/
theorem layer_row {M' : ℕ} (x a : FVec Ideal ⟨2, ![M, D]⟩ .f32) (X A : FVec Ideal ⟨2, ![M', D]⟩ .f32)
    (w1 W1 : FVec Ideal ⟨2, ![D, D]⟩ .f32) (b1 B1 : FVec Ideal ⟨2, ![1, D]⟩ .f32) (w2 W2 : FVec Ideal ⟨2, ![D, D]⟩ .f32)
    (b2 B2 : FVec Ideal ⟨2, ![1, D]⟩ .f32) (p : Fin M) (r : Fin M') (q : Fin D)
    (hx : ∀ j, x (ix2 p j) = X (ix2 r j)) (ha : ∀ j, a (ix2 p j) = A (ix2 r j))
    (hw1 : w1 = W1) (hb1 : b1 = B1) (hw2 : w2 = W2) (hb2 : b2 = B2) :
    layer x a w1 b1 w2 b2 (ix2 p q) = layer X A W1 B1 W2 B2 (ix2 r q) := by
  subst hw1 hb1 hw2 hb2
  show node (fun j => (x (ix2 p j) : EReal)) (fun j => (a (ix2 p j) : EReal)) _ _ _ _ q
      = node (fun j => (X (ix2 r j) : EReal)) (fun j => (A (ix2 r j) : EReal)) _ _ _ _ q
  rw [funext hx, funext ha]

end Cert.NodeUpdate

end
-- ==== Proof.Update0.lean ====
/-
  The first node-update call: what its output array holds when the call returns.

  The call walks fifty grid points; point `t` stages rows `2000·t … 2000·t + 1999` of the feature matrix and of the
  aggregated-neighbour matrix, the two weight matrices and the two bias rows whole, and writes back rows
  `2000·t … 2000·t + 1999` of the output. A node's update reads its own row only, so block `t` of the output is the
  restriction to those rows of ONE function of the whole arrays (the update of every node, clamped at zero); the fifty blocks
  tile the array, so the array ends at that function, whatever the buffers held when the call was entered.
-/
import proofs.«141180_j51711406244137_2_alg».proof.Proof.Gen.KernelIdeal.Frame
import proofs.«141180_j51711406244137_2_alg».proof.Proof.LibNodeUpdate
import Idealize.ShloMosaic.Lib.Pipeline.Value

set_option maxRecDepth 16384

noncomputable section

namespace Cert.KernelIdeal.Update0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The tile's products are plain: rows by columns, one contracted axis. -/
theorem plain : PlainMatmul.IsPlain dot_S2000x64_S64x64_S2000x64_1_0_0_1_n_n := ⟨rfl, rfl, rfl, rfl, rfl, rfl⟩

/-- The body's stored value is the clamped update of the tile's nodes. -/
theorem payload (x0 x1 : Vec Ideal S2000x64 .f32) (x2 : Vec Ideal S64x64 .f32) (x3 : Vec Ideal S1x64 .f32)
    (x4 : Vec Ideal S64x64 .f32) (x5 : Vec Ideal S1x64 .f32) :
    k0_pay1 x0 x1 x2 x3 x4 x5 = Cert.NodeUpdate.layerRelu (M := 2000) (D := 64) x0 x1 x2 x3 x4 x5 := by
  unfold k0_pay1
  simp only [shapeCast_self]
  exact Cert.NodeUpdate.kernel_layerRelu plain x0 x1 x2 x3 x4 x5 broadcasts_S1x64_S2000x64

/-- The whole-array function: the clamped update of every node, from the arrays as the call finds them. -/
def whole (c : Dev nD) : FVec Ideal ⟨2, ![100000, 64]⟩ .f32 :=
  Cert.NodeUpdate.layerRelu (M := 100000) (D := 64) (V c main_arg0) (V c main_v13) (V c main_arg3) (V c main_v14) (V c main_arg5) (V c main_v15)

/-- The printed index maps over the grid: the two row-blocked inputs move with the output, the four small inputs stay
    at the origin, and the output's row-block index is the point's number below fifty. -/
theorem index_facts : ∀ t : Fin cfg0.N, win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 49 :=
  (by decide +kernel : ∀ t : Fin grid0.N, _)

/-- Every row block is some point's. -/
theorem index_onto : ∀ q0 : Fin 50, ∃ t : Fin cfg0.N, win0_6.index t = ![q0.val, 0] :=
  (by decide +kernel : ∀ q0 : Fin 50, ∃ t : Fin grid0.N, win0_6.index t = ![q0.val, 0])

/-- WHAT POINT `t` WRITES BACK is block `t` of the whole-array function. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero origin]
  simp only [View.ld_unit_zero (S := S2000x64) origin, View.ld_unit_zero (S := S64x64) origin, View.ld_unit_zero (S := S1x64) origin]
  rw [payload]
  obtain ⟨e00, e01, e10, e11, e20, e21, e30, e31, e40, e41, e50, e51, e61, e60⟩ := index_facts t
  funext y
  obtain ⟨p, q, rfl⟩ : ∃ (p : Fin 2000) (q : Fin 64), y = ix2 p q := ⟨y 0, y 1, eq_ix2 y⟩
  have hp : p.val < 2000 := p.isLt
  have hq : q.val < 64 := q.isLt
  -- the whole array's row that entry (p, ·) of block t is
  let r : Fin 100000 := ⟨win0_6.index t (0 : Fin 2) * 2000 + 1 * p.val, by omega⟩
  have hout : ((cfg0.win 6).blk t).view.emb (ix2 p q) = ix2 r q := by
    funext a; apply Fin.ext
    match a with
    | ⟨0, _⟩ => rfl
    | ⟨1, _⟩ => show win0_6.index t (1 : Fin 2) * 64 + 1 * q.val = q.val; omega
  have hx : ∀ j : Fin 64, iblk0 V c 0 t (ix2 p j) = V c main_arg0 (ix2 r j) := fun j => by
    have hj : j.val < 64 := j.isLt
    show V c main_arg0 (((cfg0.win 0).blk t).view.emb (ix2 p j)) = V c main_arg0 (ix2 r j)
    refine congrArg (V c main_arg0) (funext fun a => Fin.ext ?_)
    match a with
    | ⟨0, _⟩ => show win0_0.index t (0 : Fin 2) * 2000 + 1 * p.val = win0_6.index t (0 : Fin 2) * 2000 + 1 * p.val; omega
    | ⟨1, _⟩ => show win0_0.index t (1 : Fin 2) * 64 + 1 * j.val = j.val; omega
  have ha : ∀ j : Fin 64, iblk0 V c 1 t (ix2 p j) = V c main_v13 (ix2 r j) := fun j => by
    have hj : j.val < 64 := j.isLt
    show V c main_v13 (((cfg0.win 1).blk t).view.emb (ix2 p j)) = V c main_v13 (ix2 r j)
    refine congrArg (V c main_v13) (funext fun a => Fin.ext ?_)
    match a with
    | ⟨0, _⟩ => show win0_1.index t (0 : Fin 2) * 2000 + 1 * p.val = win0_6.index t (0 : Fin 2) * 2000 + 1 * p.val; omega
    | ⟨1, _⟩ => show win0_1.index t (1 : Fin 2) * 64 + 1 * j.val = j.val; omega
  have hw1 : iblk0 V c 2 t = V c main_arg3 := funext fun z => by
    have h0 : (z 0).val < 64 := (z 0).isLt
    have h1 : (z 1).val < 64 := (z 1).isLt
    show V c main_arg3 (((cfg0.win 2).blk t).view.emb z) = V c main_arg3 z
    refine congrArg (V c main_arg3) (funext fun a => Fin.ext ?_)
    match a with
    | ⟨0, _⟩ => show win0_2.index t (0 : Fin 2) * 64 + 1 * (z 0).val = (z 0).val; omega
    | ⟨1, _⟩ => show win0_2.index t (1 : Fin 2) * 64 + 1 * (z 1).val = (z 1).val; omega
  have hb1 : iblk0 V c 3 t = V c main_v14 := funext fun z => by
    have h0 : (z 0).val < 1 := (z 0).isLt
    have h1 : (z 1).val < 64 := (z 1).isLt
    show V c main_v14 (((cfg0.win 3).blk t).view.emb z) = V c main_v14 z
    refine congrArg (V c main_v14) (funext fun a => Fin.ext ?_)
    match a with
    | ⟨0, _⟩ => show win0_3.index t (0 : Fin 2) * 1 + 1 * (z 0).val = (z 0).val; omega
    | ⟨1, _⟩ => show win0_3.index t (1 : Fin 2) * 64 + 1 * (z 1).val = (z 1).val; omega
  have hw2 : iblk0 V c 4 t = V c main_arg5 := funext fun z => by
    have h0 : (z 0).val < 64 := (z 0).isLt
    have h1 : (z 1).val < 64 := (z 1).isLt
    show V c main_arg5 (((cfg0.win 4).blk t).view.emb z) = V c main_arg5 z
    refine congrArg (V c main_arg5) (funext fun a => Fin.ext ?_)
    match a with
    | ⟨0, _⟩ => show win0_4.index t (0 : Fin 2) * 64 + 1 * (z 0).val = (z 0).val; omega
    | ⟨1, _⟩ => show win0_4.index t (1 : Fin 2) * 64 + 1 * (z 1).val = (z 1).val; omega
  have hb2 : iblk0 V c 5 t = V c main_v15 := funext fun z => by
    have h0 : (z 0).val < 1 := (z 0).isLt
    have h1 : (z 1).val < 64 := (z 1).isLt
    show V c main_v15 (((cfg0.win 5).blk t).view.emb z) = V c main_v15 z
    refine congrArg (V c main_v15) (funext fun a => Fin.ext ?_)
    match a with
    | ⟨0, _⟩ => show win0_5.index t (0 : Fin 2) * 1 + 1 * (z 0).val = (z 0).val; omega
    | ⟨1, _⟩ => show win0_5.index t (1 : Fin 2) * 64 + 1 * (z 1).val = (z 1).val; omega
  show Cert.NodeUpdate.layerRelu (M := 2000) (D := 64) (iblk0 V c 0 t) (iblk0 V c 1 t) (iblk0 V c 2 t) (iblk0 V c 3 t) (iblk0 V c 4 t) (iblk0 V c 5 t) (ix2 p q)
      = whole V c (((cfg0.win 6).blk t).view.emb (ix2 p q))
  rw [hout]
  refine congrArg (fun v : EReal => max v 0) ?_
  exact Cert.NodeUpdate.layer_row (M := 2000) (M' := 100000) (D := 64) (iblk0 V c 0 t) (iblk0 V c 1 t) (V c main_arg0) (V c main_v13)
    (iblk0 V c 2 t) (V c main_arg3) (iblk0 V c 3 t) (V c main_v14) (iblk0 V c 4 t) (V c main_arg5) (iblk0 V c 5 t) (V c main_v15) p r q hx ha hw1 hb1 hw2 hb2

/-- An index of the array is in point `t`'s block iff each coordinate is in the block's range on its axis. -/
theorem mem_block (t : Fin cfg0.N) (i : S100000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v16).slice (win0_6.rect t)).set ↔ _
  rw [View.set_slice_whole, Rect.mem_set_unit]
  exact Iff.rfl

/-- The fifty row blocks cover the array: row `r` is in block `r / 2000`. -/
theorem covered (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := index_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 64 ≤ (i 1).val ∧ (i 1).val < win0_6.index t (1 : Fin 2) * 64 + 64; omega

/-- THE ARRAY after the call: the clamped update of every node, from the arrays as the call found them. -/
theorem array_after (c : Dev nD) : (dat0 V c).arrAt 6 cfg0.N = whole V c :=
  (dat0 V c).arrAt_eq_of_cover 6 (whole V c) (fun t _ => flushed_eq V c t) (covered)

end Cert.KernelIdeal.Update0

end
-- ==== Proof.Update1.lean ====
/-
  The second node-update call: what its output array holds when the call returns.

  The call walks fifty grid points; point `t` stages rows `2000·t … 2000·t + 1999` of the feature matrix and of the
  aggregated-neighbour matrix, the two weight matrices and the two bias rows whole, and writes back rows
  `2000·t … 2000·t + 1999` of the output. A node's update reads its own row only, so block `t` of the output is the
  restriction to those rows of ONE function of the whole arrays (the update of every node); the fifty blocks
  tile the array, so the array ends at that function, whatever the buffers held when the call was entered.
-/
import proofs.«141180_j51711406244137_2_alg».proof.Proof.Gen.KernelIdeal.Frame
import proofs.«141180_j51711406244137_2_alg».proof.Proof.LibNodeUpdate
import Idealize.ShloMosaic.Lib.Pipeline.Value

set_option maxRecDepth 16384

noncomputable section

namespace Cert.KernelIdeal.Update1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The tile's products are plain: rows by columns, one contracted axis. -/
theorem plain : PlainMatmul.IsPlain dot_S2000x64_S64x64_S2000x64_1_0_0_1_n_n := ⟨rfl, rfl, rfl, rfl, rfl, rfl⟩

/-- The body's stored value is the update of the tile's nodes. -/
theorem payload (x0 x1 : Vec Ideal S2000x64 .f32) (x2 : Vec Ideal S64x64 .f32) (x3 : Vec Ideal S1x64 .f32)
    (x4 : Vec Ideal S64x64 .f32) (x5 : Vec Ideal S1x64 .f32) :
    k1_pay1 x0 x1 x2 x3 x4 x5 = Cert.NodeUpdate.layer (M := 2000) (D := 64) x0 x1 x2 x3 x4 x5 := by
  unfold k1_pay1
  simp only [shapeCast_self]
  exact Cert.NodeUpdate.kernel_layer plain x0 x1 x2 x3 x4 x5 broadcasts_S1x64_S2000x64

/-- The whole-array function: the update of every node, from the arrays as the call finds them. -/
def whole (c : Dev nD) : FVec Ideal ⟨2, ![100000, 64]⟩ .f32 :=
  Cert.NodeUpdate.layer (M := 100000) (D := 64) (V c main_v16) (V c main_v26) (V c main_arg7) (V c main_v27) (V c main_arg9) (V c main_v28)

/-- The printed index maps over the grid: the two row-blocked inputs move with the output, the four small inputs stay
    at the origin, and the output's row-block index is the point's number below fifty. -/
theorem index_facts : ∀ t : Fin cfg1.N, win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 49 :=
  (by decide +kernel : ∀ t : Fin grid1.N, _)

/-- Every row block is some point's. -/
theorem index_onto : ∀ q0 : Fin 50, ∃ t : Fin cfg1.N, win1_6.index t = ![q0.val, 0] :=
  (by decide +kernel : ∀ q0 : Fin 50, ∃ t : Fin grid1.N, win1_6.index t = ![q0.val, 0])

/-- WHAT POINT `t` WRITES BACK is block `t` of the whole-array function. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6]
  unfold out1_6
  rw [View.canon_unit_zero origin]
  simp only [View.ld_unit_zero (S := S2000x64) origin, View.ld_unit_zero (S := S64x64) origin, View.ld_unit_zero (S := S1x64) origin]
  rw [payload]
  obtain ⟨e00, e01, e10, e11, e20, e21, e30, e31, e40, e41, e50, e51, e61, e60⟩ := index_facts t
  funext y
  obtain ⟨p, q, rfl⟩ : ∃ (p : Fin 2000) (q : Fin 64), y = ix2 p q := ⟨y 0, y 1, eq_ix2 y⟩
  have hp : p.val < 2000 := p.isLt
  have hq : q.val < 64 := q.isLt
  -- the whole array's row that entry (p, ·) of block t is
  let r : Fin 100000 := ⟨win1_6.index t (0 : Fin 2) * 2000 + 1 * p.val, by omega⟩
  have hout : ((cfg1.win 6).blk t).view.emb (ix2 p q) = ix2 r q := by
    funext a; apply Fin.ext
    match a with
    | ⟨0, _⟩ => rfl
    | ⟨1, _⟩ => show win1_6.index t (1 : Fin 2) * 64 + 1 * q.val = q.val; omega
  have hx : ∀ j : Fin 64, iblk1 V c 0 t (ix2 p j) = V c main_v16 (ix2 r j) := fun j => by
    have hj : j.val < 64 := j.isLt
    show V c main_v16 (((cfg1.win 0).blk t).view.emb (ix2 p j)) = V c main_v16 (ix2 r j)
    refine congrArg (V c main_v16) (funext fun a => Fin.ext ?_)
    match a with
    | ⟨0, _⟩ => show win1_0.index t (0 : Fin 2) * 2000 + 1 * p.val = win1_6.index t (0 : Fin 2) * 2000 + 1 * p.val; omega
    | ⟨1, _⟩ => show win1_0.index t (1 : Fin 2) * 64 + 1 * j.val = j.val; omega
  have ha : ∀ j : Fin 64, iblk1 V c 1 t (ix2 p j) = V c main_v26 (ix2 r j) := fun j => by
    have hj : j.val < 64 := j.isLt
    show V c main_v26 (((cfg1.win 1).blk t).view.emb (ix2 p j)) = V c main_v26 (ix2 r j)
    refine congrArg (V c main_v26) (funext fun a => Fin.ext ?_)
    match a with
    | ⟨0, _⟩ => show win1_1.index t (0 : Fin 2) * 2000 + 1 * p.val = win1_6.index t (0 : Fin 2) * 2000 + 1 * p.val; omega
    | ⟨1, _⟩ => show win1_1.index t (1 : Fin 2) * 64 + 1 * j.val = j.val; omega
  have hw1 : iblk1 V c 2 t = V c main_arg7 := funext fun z => by
    have h0 : (z 0).val < 64 := (z 0).isLt
    have h1 : (z 1).val < 64 := (z 1).isLt
    show V c main_arg7 (((cfg1.win 2).blk t).view.emb z) = V c main_arg7 z
    refine congrArg (V c main_arg7) (funext fun a => Fin.ext ?_)
    match a with
    | ⟨0, _⟩ => show win1_2.index t (0 : Fin 2) * 64 + 1 * (z 0).val = (z 0).val; omega
    | ⟨1, _⟩ => show win1_2.index t (1 : Fin 2) * 64 + 1 * (z 1).val = (z 1).val; omega
  have hb1 : iblk1 V c 3 t = V c main_v27 := funext fun z => by
    have h0 : (z 0).val < 1 := (z 0).isLt
    have h1 : (z 1).val < 64 := (z 1).isLt
    show V c main_v27 (((cfg1.win 3).blk t).view.emb z) = V c main_v27 z
    refine congrArg (V c main_v27) (funext fun a => Fin.ext ?_)
    match a with
    | ⟨0, _⟩ => show win1_3.index t (0 : Fin 2) * 1 + 1 * (z 0).val = (z 0).val; omega
    | ⟨1, _⟩ => show win1_3.index t (1 : Fin 2) * 64 + 1 * (z 1).val = (z 1).val; omega
  have hw2 : iblk1 V c 4 t = V c main_arg9 := funext fun z => by
    have h0 : (z 0).val < 64 := (z 0).isLt
    have h1 : (z 1).val < 64 := (z 1).isLt
    show V c main_arg9 (((cfg1.win 4).blk t).view.emb z) = V c main_arg9 z
    refine congrArg (V c main_arg9) (funext fun a => Fin.ext ?_)
    match a with
    | ⟨0, _⟩ => show win1_4.index t (0 : Fin 2) * 64 + 1 * (z 0).val = (z 0).val; omega
    | ⟨1, _⟩ => show win1_4.index t (1 : Fin 2) * 64 + 1 * (z 1).val = (z 1).val; omega
  have hb2 : iblk1 V c 5 t = V c main_v28 := funext fun z => by
    have h0 : (z 0).val < 1 := (z 0).isLt
    have h1 : (z 1).val < 64 := (z 1).isLt
    show V c main_v28 (((cfg1.win 5).blk t).view.emb z) = V c main_v28 z
    refine congrArg (V c main_v28) (funext fun a => Fin.ext ?_)
    match a with
    | ⟨0, _⟩ => show win1_5.index t (0 : Fin 2) * 1 + 1 * (z 0).val = (z 0).val; omega
    | ⟨1, _⟩ => show win1_5.index t (1 : Fin 2) * 64 + 1 * (z 1).val = (z 1).val; omega
  show Cert.NodeUpdate.layer (M := 2000) (D := 64) (iblk1 V c 0 t) (iblk1 V c 1 t) (iblk1 V c 2 t) (iblk1 V c 3 t) (iblk1 V c 4 t) (iblk1 V c 5 t) (ix2 p q)
      = whole V c (((cfg1.win 6).blk t).view.emb (ix2 p q))
  rw [hout]
  exact Cert.NodeUpdate.layer_row (M := 2000) (M' := 100000) (D := 64) (iblk1 V c 0 t) (iblk1 V c 1 t) (V c main_v16) (V c main_v26)
    (iblk1 V c 2 t) (V c main_arg7) (iblk1 V c 3 t) (V c main_v27) (iblk1 V c 4 t) (V c main_arg9) (iblk1 V c 5 t) (V c main_v28) p r q hx ha hw1 hb1 hw2 hb2

/-- An index of the array is in point `t`'s block iff each coordinate is in the block's range on its axis. -/
theorem mem_block (t : Fin cfg1.N) (i : S100000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v29).slice (win1_6.rect t)).set ↔ _
  rw [View.set_slice_whole, Rect.mem_set_unit]
  exact Iff.rfl

/-- The fifty row blocks cover the array: row `r` is in block `r / 2000`. -/
theorem covered (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := index_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_block]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 64 ≤ (i 1).val ∧ (i 1).val < win1_6.index t (1 : Fin 2) * 64 + 64; omega

/-- THE ARRAY after the call: the update of every node, from the arrays as the call found them. -/
theorem array_after (c : Dev nD) : (dat1 V c).arrAt 6 cfg1.N = whole V c :=
  (dat1 V c).arrAt_eq_of_cover 6 (whole V c) (fun t _ => flushed_eq V c t) (covered)

end Cert.KernelIdeal.Update1

end
-- ==== Proof.LibColumnLayout.lean ====
/-
  Three re-layings of a matrix's rows and columns read at an index `(p, c)`, for any extents `a`, `b`, over any element
  type (the sum over the extended reals):
  * a column `[a, 1]` repeated along `b` lanes reads, at `(p, c)`, the column's entry `(p, 0)`;
  * a vector `[a]` cast to a column `[a, 1]` reads, at `(p, 0)`, the vector's entry `p`;
  * the sum of a matrix `[a, b]` along its lanes reads, at row `p`, the sum over `c` of the entries `(p, c)`.
  Together they read a "sum over the lanes, keep the axis" at a row. They complete the library's forms for a row
  `[1, b]` repeated down `a` rows and a vector `[a]` cast to a row `[1, a]`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ColumnLayout

open Idealize.ShloMosaic Idealize.ShloMosaic.ValueIdx

variable {α : Type}

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum of a matrix `[a, b]` along its second axis, started from the additive neutral word, read at row `p` over the
    extended reals: the sum over the lanes `c` of the entries `(p, c)`. -/
theorem laneSum_apply {a b : ℕ} (src : FVec Ideal ⟨2, ![a, b]⟩ .f32) (acc : BitVec FTy.f32.bits)
    (h : (⟨2, ![a, b]⟩ : Shape).Reduces [(1 : Fin 2)] ⟨1, ![a]⟩) (hφ : FKind.Formats .f32)
    (hacc : acc = FKind.add.neutral .f32 hφ) (p : Fin a) :
    multiReduction .add [(1 : Fin 2)] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => congrArg src (funext fun d => Fin.ext ?_)
  match d with
  | ⟨0, _⟩ => rfl
  | ⟨1, _⟩ => rfl

end Cert.ColumnLayout

end
-- ==== Proof.LibSoftmaxHead.lean ====
/-
  The classifier head: two dense layers with no clamp between them, then the logarithm of the softmax along each row,
  `o − m − log ∑ exp (o − m)` with `m = max (−∞) (max over the row, from −∞)` — and the two ways the programs spell it.

  A kernel takes the row maximum and the row sum by lane reductions that carry an accumulator (−∞, and the neutral
  zero), casts the resulting vector `[M]` to a column `[M, 1]` and repeats the column along the lanes, and repeats
  the bias rows down the rows. The host folds each row with an initial value, lays the vector out as a column and the
  column along the lanes by broadcasts in dimensions, and applies the host's exponential and logarithm. Each pair is
  ONE whole-array function over the extended reals — a re-laying of the same entries, a fold of `max` over the same
  set of entries from the same start, the same sum, the same interpreted function — so the two heads are one function
  of the same five arrays, with no arithmetic law used and nothing asked of the entries (infinite ones included).
-/
import Idealize.ShloMosaic.PureOps.Ideal.Laws
import Idealize.ShloMosaic.PureOps.Reduce
import Idealize.ShloMosaic.Lib.ValueIdx
import Idealize.ShloMosaic.Lib.Pipeline.Value
import Idealize.ShloMosaic.Lib.KernelVsHost
import proofs.«141180_j51711406244137_2_alg».proof.Proof.LibDense
import proofs.«141180_j51711406244137_2_alg».proof.Proof.LibColumnLayout

noncomputable section

open scoped BigOperators
open Idealize.ShloMosaic Idealize.ShloMosaic.ValueIdx

namespace Cert.SoftmaxHead

variable {M D N : ℕ}

/-- A bias row laid out down `M` rows by the host's broadcast in dimensions is the kernel's repetition of it. -/
theorem row_eq (b : FVec Ideal ⟨2, ![1, N]⟩ .f32) (hbc : (⟨2, ![1, N]⟩ : Shape).BroadcastsInDim ⟨2, ![M, N]⟩ ![0, 1])
    (hb : (⟨2, ![1, N]⟩ : Shape).Broadcasts ⟨2, ![M, N]⟩) :
    broadcastTo ⟨2, ![M, N]⟩ b hb = broadcastInDim ⟨2, ![M, N]⟩ ![0, 1] hbc b := by
  funext i
  obtain ⟨p, q, rfl⟩ : ∃ (p : Fin M) (q : Fin N), i = ix2 p q := ⟨i 0, i 1, eq_ix2 i⟩
  rw [broadcastInDim_oneRow_apply, DenseBody.row_apply]

/-- A column `[M, 1]` repeated along `N` lanes: the kernel's repetition is the host's broadcast in dimensions. -/
theorem column_eq (v : FVec Ideal ⟨2, ![M, 1]⟩ .f32) (hb : (⟨2, ![M, 1]⟩ : Shape).Broadcasts ⟨2, ![M, N]⟩)
    (hbc : (⟨2, ![M, 1]⟩ : Shape).BroadcastsInDim ⟨2, ![M, N]⟩ ![0, 1]) :
    broadcastTo ⟨2, ![M, N]⟩ v hb = broadcastInDim ⟨2, ![M, N]⟩ ![0, 1] hbc v := by
  funext i
  obtain ⟨p, q, rfl⟩ : ∃ (p : Fin M) (q : Fin N), i = ix2 p q := ⟨i 0, i 1, eq_ix2 i⟩
  rw [Cert.ColumnLayout.broadcastTo_a1_ab_apply]
  refine (broadcastInDim_apply ![0, 1] hbc v (ix2 p q) (ix2 p (0 : Fin 1)) fun a => ?_).symm
  match a with
  | ⟨0, _⟩ =>
    show p.val = if M = 1 then 0 else p.val
    split
    · have := p.isLt; omega
    · rfl
  | ⟨1, _⟩ => rfl

/-- A vector `[M]` as a column `[M, 1]`: the kernel's shape cast is the host's broadcast along axis 0. -/
theorem asColumn_eq (x : FVec Ideal ⟨1, ![M]⟩ .f32) (hsc : (⟨1, ![M]⟩ : Shape).ShapeCasts ⟨2, ![M, 1]⟩)
    (hbc : (⟨1, ![M]⟩ : Shape).BroadcastsInDim ⟨2, ![M, 1]⟩ ![0]) :
    shapeCast ⟨2, ![M, 1]⟩ x hsc = broadcastInDim ⟨2, ![M, 1]⟩ ![0] hbc x := by
  funext i
  obtain ⟨p, u, rfl⟩ : ∃ (p : Fin M) (u : Fin 1), i = ix2 p u := ⟨i 0, i 1, eq_ix2 i⟩
  rw [Cert.ColumnLayout.shapeCast_a_a1_apply]
  refine (broadcastInDim_apply ![0] hbc x (ix2 p u) (ix1 p) fun a => ?_).symm
  match a with
  | ⟨0, _⟩ =>
    show p.val = if M = 1 then 0 else p.val
    split
    · have := p.isLt; omega
    · rfl

/-- The row maximum: the kernel's lane reduction from the accumulator −∞ and the host's fold of `max` from the initial
    value −∞ fold the same operation over the same entries from the same start. -/
theorem rowMax_eq (o : FVec Ideal ⟨2, ![M, N]⟩ .f32) (h : (⟨2, ![M, N]⟩ : Shape).Reduces [(1 : Fin 2)] ⟨1, ![M]⟩)
    (hφ : FKind.Formats .f32) (hacc : (0xFF800000#32 : BitVec FTy.f32.bits) = FKind.maximumf.neutral .f32 hφ)
    (h' : (⟨2, ![M, N]⟩ : Shape).ReducesTo [(1 : Fin 2)] ⟨1, ![M]⟩) (hu : 0 < (⟨0, ![]⟩ : Shape).numel) :
    multiReduction .maximumf [(1 : Fin 2)] ⟨1, ![M]⟩ o 0xFF800000#32 h hφ hacc
      = Host.reduce FloatOps.maximumf o (constant (F := Ideal) ⟨0, ![]⟩ .f32 0xFF800000#32) h' hu := by
  funext j
  rw [multiReduction_maximumf_eq_fold, Host.reduce_eq_fold]
  rfl

/-- The kernel's head over five arrays. -/
def kernelHead (d1 : DotDims (⟨2, ![M, D]⟩ : Shape) (⟨2, ![D, D]⟩ : Shape) (⟨2, ![M, D]⟩ : Shape))
    (d2 : DotDims (⟨2, ![M, D]⟩ : Shape) (⟨2, ![D, N]⟩ : Shape) (⟨2, ![M, N]⟩ : Shape))
    (hb1 : (⟨2, ![1, D]⟩ : Shape).Broadcasts ⟨2, ![M, D]⟩) (hb2 : (⟨2, ![1, N]⟩ : Shape).Broadcasts ⟨2, ![M, N]⟩)
    (hr : (⟨2, ![M, N]⟩ : Shape).Reduces [(1 : Fin 2)] ⟨1, ![M]⟩) (hsc : (⟨1, ![M]⟩ : Shape).ShapeCasts ⟨2, ![M, 1]⟩)
    (hbc : (⟨2, ![M, 1]⟩ : Shape).Broadcasts ⟨2, ![M, N]⟩)
    (x : FVec Ideal ⟨2, ![M, D]⟩ .f32) (w1 : FVec Ideal ⟨2, ![D, D]⟩ .f32) (b1 : FVec Ideal ⟨2, ![1, D]⟩ .f32)
    (w2 : FVec Ideal ⟨2, ![D, N]⟩ .f32) (b2 : FVec Ideal ⟨2, ![1, N]⟩ .f32) : FVec Ideal ⟨2, ![M, N]⟩ .f32 :=
  let o : FVec Ideal ⟨2, ![M, N]⟩ .f32 :=
    addf (matmul d2 none (addf (matmul d1 none x w1 (constant ⟨2, ![M, D]⟩ .f32 0x00000000#32)) (broadcastTo ⟨2, ![M, D]⟩ b1 hb1)) w2
      (constant ⟨2, ![M, N]⟩ .f32 0x00000000#32)) (broadcastTo ⟨2, ![M, N]⟩ b2 hb2)
  let sh : FVec Ideal ⟨2, ![M, N]⟩ .f32 :=
    subf o (broadcastTo ⟨2, ![M, N]⟩ (shapeCast ⟨2, ![M, 1]⟩
      (maximumf (broadcast ⟨1, ![M]⟩ (Scalar.ofBits (F := Ideal) .f32 0xFF800000#32))
        (multiReduction .maximumf [(1 : Fin 2)] ⟨1, ![M]⟩ o 0xFF800000#32 hr (.inl rfl) rfl)) hsc) hbc)
  subf sh (broadcastTo ⟨2, ![M, N]⟩ (log (shapeCast ⟨2, ![M, 1]⟩
    (multiReduction .add [(1 : Fin 2)] ⟨1, ![M]⟩ (exp sh) 0x00000000#32 hr (.inl rfl) rfl) hsc)) hbc)

/-- The host's head over the same five arrays. -/
def hostHead (d1 : DotDims (⟨2, ![M, D]⟩ : Shape) (⟨2, ![D, D]⟩ : Shape) (⟨2, ![M, D]⟩ : Shape))
    (d2 : DotDims (⟨2, ![M, D]⟩ : Shape) (⟨2, ![D, N]⟩ : Shape) (⟨2, ![M, N]⟩ : Shape))
    (hr1 : (⟨2, ![1, D]⟩ : Shape).BroadcastsInDim ⟨2, ![M, D]⟩ ![0, 1]) (hr2 : (⟨2, ![1, N]⟩ : Shape).BroadcastsInDim ⟨2, ![M, N]⟩ ![0, 1])
    (hs : (⟨0, ![]⟩ : Shape).BroadcastsInDim ⟨1, ![M]⟩ ![]) (hc1 : (⟨1, ![M]⟩ : Shape).BroadcastsInDim ⟨2, ![M, 1]⟩ ![0])
    (hc : (⟨2, ![M, 1]⟩ : Shape).BroadcastsInDim ⟨2, ![M, N]⟩ ![0, 1])
    (hred : (⟨2, ![M, N]⟩ : Shape).ReducesTo [(1 : Fin 2)] ⟨1, ![M]⟩) (hu : 0 < (⟨0, ![]⟩ : Shape).numel)
    (x : FVec Ideal ⟨2, ![M, D]⟩ .f32) (w1 : FVec Ideal ⟨2, ![D, D]⟩ .f32) (b1 : FVec Ideal ⟨2, ![1, D]⟩ .f32)
    (w2 : FVec Ideal ⟨2, ![D, N]⟩ .f32) (b2 : FVec Ideal ⟨2, ![1, N]⟩ .f32) : FVec Ideal ⟨2, ![M, N]⟩ .f32 :=
  let o : FVec Ideal ⟨2, ![M, N]⟩ .f32 :=
    addf (Host.dotGeneral d2 none (addf (Host.dotGeneral d1 none x w1) (broadcastInDim ⟨2, ![M, D]⟩ ![0, 1] hr1 b1)) w2)
      (broadcastInDim ⟨2, ![M, N]⟩ ![0, 1] hr2 b2)
  let sh : FVec Ideal ⟨2, ![M, N]⟩ .f32 :=
    subf o (broadcastInDim ⟨2, ![M, N]⟩ ![0, 1] hc (broadcastInDim ⟨2, ![M, 1]⟩ ![0] hc1
      (maximumf (broadcastInDim ⟨1, ![M]⟩ ![] hs (constant ⟨0, ![]⟩ .f32 0xFF800000#32))
        (Host.reduce FloatOps.maximumf o (constant ⟨0, ![]⟩ .f32 0xFF800000#32) hred hu))))
  subf sh (broadcastInDim ⟨2, ![M, N]⟩ ![0, 1] hc (Host.log (broadcastInDim ⟨2, ![M, 1]⟩ ![0] hc1
    (Host.reduceAdd (Host.exp sh) (constant ⟨0, ![]⟩ .f32 0x00000000#32) hred hu))))

/-- The two heads are one function of the five arrays. -/
theorem kernelHead_eq_hostHead (d1 : DotDims (⟨2, ![M, D]⟩ : Shape) (⟨2, ![D, D]⟩ : Shape) (⟨2, ![M, D]⟩ : Shape))
    (d2 : DotDims (⟨2, ![M, D]⟩ : Shape) (⟨2, ![D, N]⟩ : Shape) (⟨2, ![M, N]⟩ : Shape))
    (hb1 : (⟨2, ![1, D]⟩ : Shape).Broadcasts ⟨2, ![M, D]⟩) (hb2 : (⟨2, ![1, N]⟩ : Shape).Broadcasts ⟨2, ![M, N]⟩)
    (hr : (⟨2, ![M, N]⟩ : Shape).Reduces [(1 : Fin 2)] ⟨1, ![M]⟩) (hsc : (⟨1, ![M]⟩ : Shape).ShapeCasts ⟨2, ![M, 1]⟩)
    (hbc : (⟨2, ![M, 1]⟩ : Shape).Broadcasts ⟨2, ![M, N]⟩)
    (hr1 : (⟨2, ![1, D]⟩ : Shape).BroadcastsInDim ⟨2, ![M, D]⟩ ![0, 1]) (hr2 : (⟨2, ![1, N]⟩ : Shape).BroadcastsInDim ⟨2, ![M, N]⟩ ![0, 1])
    (hs : (⟨0, ![]⟩ : Shape).BroadcastsInDim ⟨1, ![M]⟩ ![]) (hc1 : (⟨1, ![M]⟩ : Shape).BroadcastsInDim ⟨2, ![M, 1]⟩ ![0])
    (hc : (⟨2, ![M, 1]⟩ : Shape).BroadcastsInDim ⟨2, ![M, N]⟩ ![0, 1])
    (hred : (⟨2, ![M, N]⟩ : Shape).ReducesTo [(1 : Fin 2)] ⟨1, ![M]⟩) (hu : 0 < (⟨0, ![]⟩ : Shape).numel)
    (x : FVec Ideal ⟨2, ![M, D]⟩ .f32) (w1 : FVec Ideal ⟨2, ![D, D]⟩ .f32) (b1 : FVec Ideal ⟨2, ![1, D]⟩ .f32)
    (w2 : FVec Ideal ⟨2, ![D, N]⟩ .f32) (b2 : FVec Ideal ⟨2, ![1, N]⟩ .f32) :
    kernelHead d1 d2 hb1 hb2 hr hsc hbc x w1 b1 w2 b2 = hostHead d1 d2 hr1 hr2 hs hc1 hc hred hu x w1 b1 w2 b2 := by
  have hzero : (constant (F := Ideal) ⟨0, ![]⟩ .f32 0x00000000#32) (Shape.Idx.first hu) = 0 := Ideal.ofBits_zero_f32
  unfold kernelHead hostHead
  simp only [matmul_zero_eq_dotGeneral, row_eq b1 hr1 hb1, row_eq b2 hr2 hb2, column_eq _ hbc hc, asColumn_eq _ hsc hc1,
    rowMax_eq _ hr (.inl rfl) rfl hred hu,
    ← broadcastInDim_constant (F := Ideal) (s := ⟨0, ![]⟩) (t := ⟨1, ![M]⟩) (φ := .f32) ![] hs 0xFF800000#32,
    multiReduction_add_eq_hostReduceAdd _ (0x00000000#32 : BitVec FTy.f32.bits) hr (.inl rfl) rfl
      (constant (F := Ideal) ⟨0, ![]⟩ .f32 0x00000000#32) hred hu hzero]
  rfl

end Cert.SoftmaxHead

end
-- ==== Proof.Head.lean ====
/-
  The classifier-head call: what its output array holds when the call returns.

  The call has one grid point; every window's block is its whole array (the pooled features `[512, 64]`, the two
  weight matrices, the two bias rows, the scores `[512, 32]`). So the output array ends at the body's function of the
  five input arrays as the call finds them: two dense layers and the logarithm of the softmax along each row.
-/
import proofs.«141180_j51711406244137_2_alg».proof.Proof.Gen.KernelIdeal.Frame
import proofs.«141180_j51711406244137_2_alg».proof.Proof.LibSoftmaxHead
import Idealize.ShloMosaic.Lib.Pipeline.Value

set_option maxRecDepth 16384

noncomputable section

namespace Cert.KernelIdeal.Head

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The kernel's head over five arrays of the call's shapes. -/
abbrev head (x0 : Vec Ideal S512x64 .f32) (x1 : Vec Ideal S64x64 .f32) (x2 : Vec Ideal S1x64 .f32) (x3 : Vec Ideal S64x32 .f32)
    (x4 : Vec Ideal S1x32 .f32) : FVec Ideal ⟨2, ![512, 32]⟩ .f32 :=
  Cert.SoftmaxHead.kernelHead (M := 512) (D := 64) (N := 32) dot_S512x64_S64x64_S512x64_1_0_0_1_n_n dot_S512x64_S64x32_S512x32_1_0_0_1_n_n
    broadcasts_S1x64_S512x64 broadcasts_S1x32_S512x32 reduces_S512x32_S512 shapeCasts_S512_S512x1 broadcasts_S512x1_S512x32 x0 x1 x2 x3 x4

/-- The body's stored value is that head of its loaded blocks. -/
theorem payload (x0 : Vec Ideal S512x64 .f32) (x1 : Vec Ideal S64x64 .f32) (x2 : Vec Ideal S1x64 .f32) (x3 : Vec Ideal S64x32 .f32)
    (x4 : Vec Ideal S1x32 .f32) : k2_pay1 x0 x1 x2 x3 x4 = head x0 x1 x2 x3 x4 := by
  unfold k2_pay1 head Cert.SoftmaxHead.kernelHead
  simp only [shapeCast_self]

/-- The whole-array function: the head of the arrays as the call finds them. -/
def whole (c : Dev nD) : FVec Ideal ⟨2, ![512, 32]⟩ .f32 :=
  head (V c main_v43) (V c main_arg11) (V c main_v44) (V c main_arg13) (V c main_v45)

/-- Every window's block index is the origin at the one point. -/
theorem index_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- WHAT THE POINT WRITES BACK is the whole-array function, read through the block that is the whole array. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero origin]
  simp only [View.ld_unit_zero (S := S512x64) origin, View.ld_unit_zero (S := S64x64) origin, View.ld_unit_zero (S := S1x64) origin,
    View.ld_unit_zero (S := S64x32) origin, View.ld_unit_zero (S := S1x32) origin]
  rw [payload]
  obtain ⟨e00, e01, e10, e11, e20, e21, e30, e31, e40, e41, e50, e51⟩ := index_facts t
  have hb0 : iblk2 V c 0 t = V c main_v43 := funext fun z => by
    have h0 : (z 0).val < 512 := (z 0).isLt
    have h1 : (z 1).val < 64 := (z 1).isLt
    show V c main_v43 (((cfg2.win 0).blk t).view.emb z) = V c main_v43 z
    refine congrArg (V c main_v43) (funext fun a => Fin.ext ?_)
    match a with
    | ⟨0, _⟩ => show win2_0.index t (0 : Fin 2) * 512 + 1 * (z 0).val = (z 0).val; omega
    | ⟨1, _⟩ => show win2_0.index t (1 : Fin 2) * 64 + 1 * (z 1).val = (z 1).val; omega
  have hb1 : iblk2 V c 1 t = V c main_arg11 := funext fun z => by
    have h0 : (z 0).val < 64 := (z 0).isLt
    have h1 : (z 1).val < 64 := (z 1).isLt
    show V c main_arg11 (((cfg2.win 1).blk t).view.emb z) = V c main_arg11 z
    refine congrArg (V c main_arg11) (funext fun a => Fin.ext ?_)
    match a with
    | ⟨0, _⟩ => show win2_1.index t (0 : Fin 2) * 64 + 1 * (z 0).val = (z 0).val; omega
    | ⟨1, _⟩ => show win2_1.index t (1 : Fin 2) * 64 + 1 * (z 1).val = (z 1).val; omega
  have hb2 : iblk2 V c 2 t = V c main_v44 := funext fun z => by
    have h0 : (z 0).val < 1 := (z 0).isLt
    have h1 : (z 1).val < 64 := (z 1).isLt
    show V c main_v44 (((cfg2.win 2).blk t).view.emb z) = V c main_v44 z
    refine congrArg (V c main_v44) (funext fun a => Fin.ext ?_)
    match a with
    | ⟨0, _⟩ => show win2_2.index t (0 : Fin 2) * 1 + 1 * (z 0).val = (z 0).val; omega
    | ⟨1, _⟩ => show win2_2.index t (1 : Fin 2) * 64 + 1 * (z 1).val = (z 1).val; omega
  have hb3 : iblk2 V c 3 t = V c main_arg13 := funext fun z => by
    have h0 : (z 0).val < 64 := (z 0).isLt
    have h1 : (z 1).val < 32 := (z 1).isLt
    show V c main_arg13 (((cfg2.win 3).blk t).view.emb z) = V c main_arg13 z
    refine congrArg (V c main_arg13) (funext fun a => Fin.ext ?_)
    match a with
    | ⟨0, _⟩ => show win2_3.index t (0 : Fin 2) * 64 + 1 * (z 0).val = (z 0).val; omega
    | ⟨1, _⟩ => show win2_3.index t (1 : Fin 2) * 32 + 1 * (z 1).val = (z 1).val; omega
  have hb4 : iblk2 V c 4 t = V c main_v45 := funext fun z => by
    have h0 : (z 0).val < 1 := (z 0).isLt
    have h1 : (z 1).val < 32 := (z 1).isLt
    show V c main_v45 (((cfg2.win 4).blk t).view.emb z) = V c main_v45 z
    refine congrArg (V c main_v45) (funext fun a => Fin.ext ?_)
    match a with
    | ⟨0, _⟩ => show win2_4.index t (0 : Fin 2) * 1 + 1 * (z 0).val = (z 0).val; omega
    | ⟨1, _⟩ => show win2_4.index t (1 : Fin 2) * 32 + 1 * (z 1).val = (z 1).val; omega
  funext y
  have hy0 : (y 0).val < 512 := (y 0).isLt
  have hy1 : (y 1).val < 32 := (y 1).isLt
  have hout : ((cfg2.win 5).blk t).view.emb y = y := by
    funext a; apply Fin.ext
    match a with
    | ⟨0, _⟩ => show win2_5.index t (0 : Fin 2) * 512 + 1 * (y 0).val = (y 0).val; omega
    | ⟨1, _⟩ => show win2_5.index t (1 : Fin 2) * 32 + 1 * (y 1).val = (y 1).val; omega
  show head (iblk2 V c 0 t) (iblk2 V c 1 t) (iblk2 V c 2 t) (iblk2 V c 3 t) (iblk2 V c 4 t) y
      = whole V c (((cfg2.win 5).blk t).view.emb y)
  rw [hout, hb0, hb1, hb2, hb3, hb4]
  rfl

/-- An index of the array is in the point's block iff each coordinate is in the block's range on its axis. -/
theorem mem_block (t : Fin cfg2.N) (i : S512x32.Idx) :
    i ∈ ((cfg2.win 5).blk t).view.set ↔ ∀ a : Fin 2, win2_5.index t a * S512x32.size a ≤ (i a).val ∧ (i a).val < win2_5.index t a * S512x32.size a + S512x32.size a := by
  show i ∈ ((View.whole main_v46).slice (win2_5.rect t)).set ↔ _
  rw [View.set_slice_whole, Rect.mem_set_unit]
  exact Iff.rfl

/-- The one block covers the array. -/
theorem covered (i : S512x32.Idx) : ∃ t : Fin cfg2.N, (cfg2.win 5).flush t = true ∧ i ∈ ((cfg2.win 5).blk t).view.set := by
  have hi0 : (i 0).val < 512 := (i 0).isLt
  have hi1 : (i 1).val < 32 := (i 1).isLt
  obtain ⟨e00, e01, e10, e11, e20, e21, e30, e31, e40, e41, e50, e51⟩ := index_facts t2_0
  refine ⟨t2_0, flush2_5 t2_0, ?_⟩
  rw [mem_block]
  intro a
  match a with
  | ⟨0, _⟩ => show win2_5.index t2_0 (0 : Fin 2) * 512 ≤ (i 0).val ∧ (i 0).val < win2_5.index t2_0 (0 : Fin 2) * 512 + 512; omega
  | ⟨1, _⟩ => show win2_5.index t2_0 (1 : Fin 2) * 32 ≤ (i 1).val ∧ (i 1).val < win2_5.index t2_0 (1 : Fin 2) * 32 + 32; omega

/-- THE ARRAY after the call: the head of the arrays as the call found them. -/
theorem array_after (c : Dev nD) : (dat2 V c).arrAt 5 cfg2.N = whole V c :=
  (dat2 V c).arrAt_eq_of_cover 5 (whole V c) (fun t _ => flushed_eq V c t) (covered)

end Cert.KernelIdeal.Head

end
-- ==== Proof.LibLayout.lean ====
/-
  A flat array of `N` numbers read as one row `[1, N]`: the row's entry `q` is the array's entry `q`.
-/
import Idealize.ShloMosaic.Lib.ValueIdx
import Idealize.ShloMosaic.Lib.Pipeline.Value

noncomputable section

open Idealize.ShloMosaic Idealize.ShloMosaic.ValueIdx

namespace RowOfFlat

variable {N : ℕ} {α : Type}

theorem apply (x : (⟨1, ![N]⟩ : Shape).Idx → α) (h : (⟨1, ![N]⟩ : Shape).ShapeCasts (⟨2, ![1, N]⟩ : Shape)) (q : Fin N) :
    shapeCast (⟨2, ![1, N]⟩ : Shape) x h (ix2 (0 : Fin 1) q) = x (ix1 q) :=
  (shapeCast_addUnit_apply ![N] x h (ix2 (0 : Fin 1) q)).trans
    (congrArg x (funext fun a => by match a with | ⟨0, _⟩ => rfl))

/-- As a whole array: reading the row's entries back gives the flat array. -/
theorem eq (x : (⟨1, ![N]⟩ : Shape).Idx → α) (h : (⟨1, ![N]⟩ : Shape).ShapeCasts (⟨2, ![1, N]⟩ : Shape)) :
    (fun j : (⟨1, ![N]⟩ : Shape).Idx => shapeCast (⟨2, ![1, N]⟩ : Shape) x h (ix2 (0 : Fin 1) (j 0))) = x := by
  funext j
  exact (apply x h (j 0)).trans (congrArg x (eq_ix1 j).symm)

end RowOfFlat

end
-- ==== Proof.Stages.lean ====
/-
  The reference program in stages, as functions of the argument arrays over the extended reals.

  `neighbours x e`: row `i` is the sum of the rows `x[src]` over the edges `src → i` of the edge list `e` (a gather by
  the sources, negative indices wrapped once, then an accumulating scatter by the targets into zeros); `neighboursOf`
  is the same from the two index vectors.
  `hidden`: the first node update of the features and their neighbour sums, clamped at zero.
  `embedding`: the second node update, of the hidden features and THEIR neighbour sums, not clamped: the first result.
  `pooled`: per graph of the batch vector, the sum of the clamped embedding rows over the graph's nodes divided by the
  larger of the node count and one.
  `scores`: the classifier head of the pooled features: the second result.

  The node updates are spelled as the host spells them; `hidden_eq` and `embedding_eq` restate them as the row-local
  function of Proof/LibNodeUpdate.lean, which is what a row tiling computes.
-/
import proofs.«141180_j51711406244137_2_alg».proof.Proof.Gen.ReferenceIdeal
import proofs.«141180_j51711406244137_2_alg».proof.Proof.LibNodeUpdate
import proofs.«141180_j51711406244137_2_alg».proof.Proof.LibSoftmaxHead
import proofs.«141180_j51711406244137_2_alg».proof.Proof.LibLayout

noncomputable section

namespace Cert.ReferenceIdeal.Stages

open Cert.ReferenceIdeal Idealize.ShloMosaic Idealize.ShloMosaic.TcCoe Idealize.ShloMosaic.ValueIdx
open Cert.ReferenceIdeal.Facts₀ Cert.ReferenceIdeal.Facts

abbrev Feat := FVec Ideal S100000x64 .f32
abbrev Edges := IVec S2x1000000 32
abbrev Batch := IVec S100000 32
abbrev W64 := FVec Ideal S64x64 .f32
abbrev W32 := FVec Ideal S64x32 .f32
abbrev B64 := FVec Ideal S64 .f32
abbrev B32 := FVec Ideal S32 .f32

/-- The edges' sources: row 0 of the edge list. -/
def src (e : Edges) : IVec S1000000 32 :=
  shapeCast _ (extractStridedSlice S1x1000000 ![0, 0] e slices_S2x1000000_S1x1000000_0_0) shapeCasts_S1x1000000_S1000000

/-- The edges' targets: row 1 of the edge list. -/
def dst (e : Edges) : IVec S1000000 32 :=
  shapeCast _ (extractStridedSlice S1x1000000 ![1, 0] e slices_S2x1000000_S1x1000000_1_0) shapeCasts_S1x1000000_S1000000

/-- Source indices as gather indices `[E, 1]`, a negative index wrapped once by the node count. -/
def gatherIdx (s : IVec S1000000 32) : IVec S1000000x1 32 :=
  broadcastInDim S1000000x1 ![0] bcast_S1000000_S1000000x1_0
    (select (cmpi .slt s (broadcastInDim S1000000 ![] bcast_S_S1000000 (constantI S_ 32 0#32)))
      (addi s (broadcastInDim S1000000 ![] bcast_S_S1000000 (constantI S_ 32 100000#32))) s)

/-- Target indices as scatter indices `[E, 1]`. -/
def scatterIdx (d : IVec S1000000 32) : IVec S1000000x1 32 :=
  broadcastInDim S1000000x1 ![0] bcast_S1000000_S1000000x1_0 d

/-- The zero feature matrix. -/
def zeros : Feat := broadcastInDim S100000x64 ![] bcast_S_S100000x64 (constant (F := Ideal) S_ .f32 0x00000000#32)

/-- Row `i`: the sum of the rows `x[s k]` over the edges `k` with target `d k = i` (a gather by the sources, then an
    accumulating scatter by the targets into zeros). -/
def neighboursOf (x : Feat) (s d : IVec S1000000 32) : Feat :=
  Host.scatterAdd (F := Ideal) scatter_S100000x64_S1000000x1_S1000000x64_1_0_0_1 zeros (scatterIdx d)
    (Host.gather gather_S100000x64_S1000000x1_S1000000x64_1_0_n_n_0_1_164 x (gatherIdx s))

/-- Every node's sum of its in-neighbours' rows, over the edge list `e`. -/
def neighbours (x : Feat) (e : Edges) : Feat := neighboursOf x (src e) (dst e)

/-- A bias vector as one row. -/
def row64 (b : B64) : FVec Ideal S1x64 .f32 := broadcastInDim S1x64 ![1] bcast_S64_S1x64_1 b
def row32 (b : B32) : FVec Ideal S1x32 .f32 := broadcastInDim S1x32 ![1] bcast_S32_S1x32_1 b

/-- One node update as the host spells it. -/
def update (x a : Feat) (w1 : W64) (b1 : B64) (w2 : W64) (b2 : B64) : Feat :=
  addf (Host.dotGeneral (F := Ideal) dot_S100000x64_S64x64_S100000x64_1_0_0_1_n_n none
      (maximumf (addf (Host.dotGeneral (F := Ideal) dot_S100000x64_S64x64_S100000x64_1_0_0_1_n_n none (addf x a) w1)
          (broadcastInDim S100000x64 ![0, 1] bcast_S1x64_S100000x64_0_1 (row64 b1))) zeros) w2)
    (broadcastInDim S100000x64 ![0, 1] bcast_S1x64_S100000x64_0_1 (row64 b2))

/-- The hidden features: the first update, clamped at zero. -/
def hidden (x : Feat) (e : Edges) (w1 : W64) (b1 : B64) (w2 : W64) (b2 : B64) : Feat :=
  maximumf (update x (neighbours x e) w1 b1 w2 b2) zeros

/-- The embedding: the second update, of the hidden features. -/
def embedding (x : Feat) (e : Edges) (w1a : W64) (b1a : B64) (w2a : W64) (b2a : B64) (w1b : W64) (b1b : B64) (w2b : W64) (b2b : B64) : Feat :=
  update (hidden x e w1a b1a w2a b2a) (neighbours (hidden x e w1a b1a w2a b2a) e) w1b b1b w2b b2b

/-- The mean of the clamped embedding rows over each graph's nodes (an empty graph divides by one). -/
def pooled (emb : Feat) (g : Batch) : FVec Ideal S512x64 .f32 :=
  Host.divf (F := Ideal)
    (Host.scatterAdd (F := Ideal) scatter_S512x64_S100000x1_S100000x64_1_0_0_1 (broadcastInDim S512x64 ![] bcast_S_S512x64 (constant (F := Ideal) S_ .f32 0x00000000#32))
      (broadcastInDim S100000x1 ![0] bcast_S100000_S100000x1_0 g) (maximumf emb zeros))
    (broadcastInDim S512x64 ![0, 1] bcast_S512x1_S512x64_0_1 (broadcastInDim S512x1 ![0] bcast_S512_S512x1_0
      (maximumf
        (Host.scatterAdd (F := Ideal) scatter_S512_S100000x1_S100000_n_0_0_1 (broadcastInDim S512 ![] bcast_S_S512 (constant (F := Ideal) S_ .f32 0x00000000#32))
          (broadcastInDim S100000x1 ![0] bcast_S100000_S100000x1_0 g) (broadcastInDim S100000 ![] bcast_S_S100000 (constant (F := Ideal) S_ .f32 0x3F800000#32)))
        (broadcastInDim S512 ![] bcast_S_S512 (constant (F := Ideal) S_ .f32 0x3F800000#32)))))

/-- The class scores of the pooled features. -/
def scores (p : FVec Ideal S512x64 .f32) (w1 : W64) (b1 : B64) (w2 : W32) (b2 : B32) :
    FVec Ideal S512x32 .f32 :=
  Cert.SoftmaxHead.hostHead (M := 512) (D := 64) (N := 32) dot_S512x64_S64x64_S512x64_1_0_0_1_n_n dot_S512x64_S64x32_S512x32_1_0_0_1_n_n
    bcast_S1x64_S512x64_0_1 bcast_S1x32_S512x32_0_1 bcast_S_S512 bcast_S512_S512x1_0 bcast_S512x1_S512x32_0_1
    reducesTo_S512x32_S512_d1 h_S_ p w1 (row64 b1) w2 (row32 b2)

/-- The host's product of the feature matrix with a weight matrix is plain: rows by columns. -/
theorem plain : PlainMatmul.IsPlain dot_S100000x64_S64x64_S100000x64_1_0_0_1_n_n := ⟨rfl, rfl, rfl, rfl, rfl, rfl⟩

/-- A one-row bias repeats down the rows (the shape fact the kernel's spelling would carry). -/
theorem rowRepeats : (⟨2, ![1, 64]⟩ : Shape).Broadcasts ⟨2, ![100000, 64]⟩ := by decide

/-- The host's update is the row-local update. -/
theorem update_eq (x a : Feat) (w1 : W64) (b1 : B64) (w2 : W64) (b2 : B64) :
    update x a w1 b1 w2 b2 = Cert.NodeUpdate.layer (M := 100000) (D := 64) x a w1 (row64 b1) w2 (row64 b2) := by
  unfold update zeros
  exact Cert.NodeUpdate.host_layer plain x a w1 (row64 b1) w2 (row64 b2) bcast_S1x64_S100000x64_0_1 rowRepeats bcast_S_S100000x64

/-- The hidden features are the clamped row-local update of the features and their neighbour sums. -/
theorem hidden_eq (x : Feat) (e : Edges) (w1 : W64) (b1 : B64) (w2 : W64) (b2 : B64) :
    hidden x e w1 b1 w2 b2 = Cert.NodeUpdate.layerRelu (M := 100000) (D := 64) x (neighbours x e) w1 (row64 b1) w2 (row64 b2) := by
  unfold hidden update zeros
  exact Cert.NodeUpdate.host_layerRelu plain x (neighbours x e) w1 (row64 b1) w2 (row64 b2) bcast_S1x64_S100000x64_0_1 rowRepeats bcast_S_S100000x64

/-- A vector cast to one row `[1, N]` is the host's broadcast of it along axis 1. -/
theorem rowCast_eq {N : ℕ} {α : Type} (b : (⟨1, ![N]⟩ : Shape).Idx → α) (hsc : (⟨1, ![N]⟩ : Shape).ShapeCasts ⟨2, ![1, N]⟩)
    (hbc : (⟨1, ![N]⟩ : Shape).BroadcastsInDim ⟨2, ![1, N]⟩ ![1]) :
    shapeCast ⟨2, ![1, N]⟩ b hsc = broadcastInDim ⟨2, ![1, N]⟩ ![1] hbc b := by
  funext i
  obtain ⟨u, q, rfl⟩ : ∃ (u : Fin 1) (q : Fin N), i = ix2 u q := ⟨i 0, i 1, eq_ix2 i⟩
  have hu : u = 0 := Subsingleton.elim _ _
  subst hu
  rw [RowOfFlat.apply]
  refine (broadcastInDim_apply ![1] hbc b (ix2 (0 : Fin 1) q) (ix1 q) fun a => ?_).symm
  match a with
  | ⟨0, _⟩ =>
    show q.val = if N = 1 then 0 else q.val
    split
    · have := q.isLt; omega
    · rfl

/-- The kernel's reshape of a bias vector `[64]` to a row is `row64`. -/
theorem row64_eq (b : B64) (hsc : (⟨1, ![64]⟩ : Shape).ShapeCasts ⟨2, ![1, 64]⟩) : shapeCast ⟨2, ![1, 64]⟩ b hsc = row64 b :=
  rowCast_eq b hsc bcast_S64_S1x64_1

/-- The kernel's reshape of the bias vector `[32]` to a row is `row32`. -/
theorem row32_eq (b : B32) (hsc : (⟨1, ![32]⟩ : Shape).ShapeCasts ⟨2, ![1, 32]⟩) : shapeCast ⟨2, ![1, 32]⟩ b hsc = row32 b :=
  rowCast_eq b hsc bcast_S32_S1x32_1

/-- The embedding is the row-local update of the hidden features and their neighbour sums. -/
theorem embedding_eq (x : Feat) (e : Edges) (w1a : W64) (b1a : B64) (w2a : W64) (b2a : B64) (w1b : W64) (b1b : B64) (w2b : W64) (b2b : B64) :
    embedding x e w1a b1a w2a b2a w1b b1b w2b b2b
      = Cert.NodeUpdate.layer (M := 100000) (D := 64) (hidden x e w1a b1a w2a b2a) (neighbours (hidden x e w1a b1a w2a b2a) e)
          w1b (row64 b1b) w2b (row64 b2b) := by
  unfold embedding
  exact update_eq _ _ w1b b1b w2b b2b

end Cert.ReferenceIdeal.Stages

end
-- ==== Proof.KernelValue.lean ====
/-
  What the idealized kernel's two results hold: the reference's stages.

  The buffers are followed from boundary to boundary of @main (`W0` the launch memory, `W1` after the first host
  stretch, `W2` after the first node-update call, … `W6` at the return). An argument array is written by nothing, so
  it holds its launch contents at every boundary. The first stretch computes the edge lists and the neighbour sums
  of the features exactly as the reference does; the first call leaves the clamped update of every node, which is the
  reference's hidden features; the second stretch sums the hidden features over the same edges; the second call
  leaves the reference's embedding; the third stretch pools it per graph; the third call leaves the classifier
  head of the pooled features, and the kernel's head is the host's (Proof/LibSoftmaxHead.lean).
-/
import proofs.«141180_j51711406244137_2_alg».proof.Proof.KernelRun
import proofs.«141180_j51711406244137_2_alg».proof.Proof.Update0
import proofs.«141180_j51711406244137_2_alg».proof.Proof.Update1
import proofs.«141180_j51711406244137_2_alg».proof.Proof.Head
import proofs.«141180_j51711406244137_2_alg».proof.Proof.Stages
import Idealize.ShloMosaic.Lib.StableHlo.Run

set_option maxRecDepth 16384

noncomputable section

namespace Cert.KernelIdeal.Results

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments keep their launch contents through every boundary that later reads them -/

theorem W1_arg0 : W1 m ρ c (Proc.devRef .tc main_arg0) = m ((c : Thread nD τ).loc main_arg0) := by
  show StableHlo.after hostOps0 (W0 m ρ c) (Proc.devRef .tc main_arg0) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg5 : W1 m ρ c (Proc.devRef .tc main_arg5) = m ((c : Thread nD τ).loc main_arg5) := by
  show StableHlo.after hostOps0 (W0 m ρ c) (Proc.devRef .tc main_arg5) = _
  after_results
theorem W1_arg7 : W1 m ρ c (Proc.devRef .tc main_arg7) = m ((c : Thread nD τ).loc main_arg7) := by
  show StableHlo.after hostOps0 (W0 m ρ c) (Proc.devRef .tc main_arg7) = _
  after_results
theorem W2_arg7 : W2 m ρ c (Proc.devRef .tc main_arg7) = m ((c : Thread nD τ).loc main_arg7) :=
  (W2_of_ne m ρ c main_arg7 (by decide)).trans (W1_arg7 m ρ c)
theorem W3_arg7 : W3 m ρ c (Proc.devRef .tc main_arg7) = m ((c : Thread nD τ).loc main_arg7) := by
  show StableHlo.after hostOps1 (W2 m ρ c) (Proc.devRef .tc main_arg7) = _
  after_results
  exact W2_arg7 m ρ c
theorem W1_arg9 : W1 m ρ c (Proc.devRef .tc main_arg9) = m ((c : Thread nD τ).loc main_arg9) := by
  show StableHlo.after hostOps0 (W0 m ρ c) (Proc.devRef .tc main_arg9) = _
  after_results
theorem W2_arg9 : W2 m ρ c (Proc.devRef .tc main_arg9) = m ((c : Thread nD τ).loc main_arg9) :=
  (W2_of_ne m ρ c main_arg9 (by decide)).trans (W1_arg9 m ρ c)
theorem W3_arg9 : W3 m ρ c (Proc.devRef .tc main_arg9) = m ((c : Thread nD τ).loc main_arg9) := by
  show StableHlo.after hostOps1 (W2 m ρ c) (Proc.devRef .tc main_arg9) = _
  after_results
  exact W2_arg9 m ρ c
theorem W1_arg8 : W1 m ρ c (Proc.devRef .tc main_arg8) = m ((c : Thread nD τ).loc main_arg8) := by
  show StableHlo.after hostOps0 (W0 m ρ c) (Proc.devRef .tc main_arg8) = _
  after_results
theorem W2_arg8 : W2 m ρ c (Proc.devRef .tc main_arg8) = m ((c : Thread nD τ).loc main_arg8) :=
  (W2_of_ne m ρ c main_arg8 (by decide)).trans (W1_arg8 m ρ c)
theorem W1_arg10 : W1 m ρ c (Proc.devRef .tc main_arg10) = m ((c : Thread nD τ).loc main_arg10) := by
  show StableHlo.after hostOps0 (W0 m ρ c) (Proc.devRef .tc main_arg10) = _
  after_results
theorem W2_arg10 : W2 m ρ c (Proc.devRef .tc main_arg10) = m ((c : Thread nD τ).loc main_arg10) :=
  (W2_of_ne m ρ c main_arg10 (by decide)).trans (W1_arg10 m ρ c)
theorem W1_arg2 : W1 m ρ c (Proc.devRef .tc main_arg2) = m ((c : Thread nD τ).loc main_arg2) := by
  show StableHlo.after hostOps0 (W0 m ρ c) (Proc.devRef .tc main_arg2) = _
  after_results
theorem W2_arg2 : W2 m ρ c (Proc.devRef .tc main_arg2) = m ((c : Thread nD τ).loc main_arg2) :=
  (W2_of_ne m ρ c main_arg2 (by decide)).trans (W1_arg2 m ρ c)
theorem W3_arg2 : W3 m ρ c (Proc.devRef .tc main_arg2) = m ((c : Thread nD τ).loc main_arg2) := by
  show StableHlo.after hostOps1 (W2 m ρ c) (Proc.devRef .tc main_arg2) = _
  after_results
  exact W2_arg2 m ρ c
theorem W4_arg2 : W4 m ρ c (Proc.devRef .tc main_arg2) = m ((c : Thread nD τ).loc main_arg2) :=
  (W4_of_ne m ρ c main_arg2 (by decide)).trans (W3_arg2 m ρ c)
theorem W1_arg12 : W1 m ρ c (Proc.devRef .tc main_arg12) = m ((c : Thread nD τ).loc main_arg12) := by
  show StableHlo.after hostOps0 (W0 m ρ c) (Proc.devRef .tc main_arg12) = _
  after_results
theorem W2_arg12 : W2 m ρ c (Proc.devRef .tc main_arg12) = m ((c : Thread nD τ).loc main_arg12) :=
  (W2_of_ne m ρ c main_arg12 (by decide)).trans (W1_arg12 m ρ c)
theorem W3_arg12 : W3 m ρ c (Proc.devRef .tc main_arg12) = m ((c : Thread nD τ).loc main_arg12) := by
  show StableHlo.after hostOps1 (W2 m ρ c) (Proc.devRef .tc main_arg12) = _
  after_results
  exact W2_arg12 m ρ c
theorem W4_arg12 : W4 m ρ c (Proc.devRef .tc main_arg12) = m ((c : Thread nD τ).loc main_arg12) :=
  (W4_of_ne m ρ c main_arg12 (by decide)).trans (W3_arg12 m ρ c)
theorem W1_arg14 : W1 m ρ c (Proc.devRef .tc main_arg14) = m ((c : Thread nD τ).loc main_arg14) := by
  show StableHlo.after hostOps0 (W0 m ρ c) (Proc.devRef .tc main_arg14) = _
  after_results
theorem W2_arg14 : W2 m ρ c (Proc.devRef .tc main_arg14) = m ((c : Thread nD τ).loc main_arg14) :=
  (W2_of_ne m ρ c main_arg14 (by decide)).trans (W1_arg14 m ρ c)
theorem W3_arg14 : W3 m ρ c (Proc.devRef .tc main_arg14) = m ((c : Thread nD τ).loc main_arg14) := by
  show StableHlo.after hostOps1 (W2 m ρ c) (Proc.devRef .tc main_arg14) = _
  after_results
  exact W2_arg14 m ρ c
theorem W4_arg14 : W4 m ρ c (Proc.devRef .tc main_arg14) = m ((c : Thread nD τ).loc main_arg14) :=
  (W4_of_ne m ρ c main_arg14 (by decide)).trans (W3_arg14 m ρ c)
theorem W1_arg11 : W1 m ρ c (Proc.devRef .tc main_arg11) = m ((c : Thread nD τ).loc main_arg11) := by
  show StableHlo.after hostOps0 (W0 m ρ c) (Proc.devRef .tc main_arg11) = _
  after_results
theorem W2_arg11 : W2 m ρ c (Proc.devRef .tc main_arg11) = m ((c : Thread nD τ).loc main_arg11) :=
  (W2_of_ne m ρ c main_arg11 (by decide)).trans (W1_arg11 m ρ c)
theorem W3_arg11 : W3 m ρ c (Proc.devRef .tc main_arg11) = m ((c : Thread nD τ).loc main_arg11) := by
  show StableHlo.after hostOps1 (W2 m ρ c) (Proc.devRef .tc main_arg11) = _
  after_results
  exact W2_arg11 m ρ c
theorem W4_arg11 : W4 m ρ c (Proc.devRef .tc main_arg11) = m ((c : Thread nD τ).loc main_arg11) :=
  (W4_of_ne m ρ c main_arg11 (by decide)).trans (W3_arg11 m ρ c)
theorem W5_arg11 : W5 m ρ c (Proc.devRef .tc main_arg11) = m ((c : Thread nD τ).loc main_arg11) := by
  show StableHlo.after hostOps2 (W4 m ρ c) (Proc.devRef .tc main_arg11) = _
  after_results
  exact W4_arg11 m ρ c
theorem W1_arg13 : W1 m ρ c (Proc.devRef .tc main_arg13) = m ((c : Thread nD τ).loc main_arg13) := by
  show StableHlo.after hostOps0 (W0 m ρ c) (Proc.devRef .tc main_arg13) = _
  after_results
theorem W2_arg13 : W2 m ρ c (Proc.devRef .tc main_arg13) = m ((c : Thread nD τ).loc main_arg13) :=
  (W2_of_ne m ρ c main_arg13 (by decide)).trans (W1_arg13 m ρ c)
theorem W3_arg13 : W3 m ρ c (Proc.devRef .tc main_arg13) = m ((c : Thread nD τ).loc main_arg13) := by
  show StableHlo.after hostOps1 (W2 m ρ c) (Proc.devRef .tc main_arg13) = _
  after_results
  exact W2_arg13 m ρ c
theorem W4_arg13 : W4 m ρ c (Proc.devRef .tc main_arg13) = m ((c : Thread nD τ).loc main_arg13) :=
  (W4_of_ne m ρ c main_arg13 (by decide)).trans (W3_arg13 m ρ c)
theorem W5_arg13 : W5 m ρ c (Proc.devRef .tc main_arg13) = m ((c : Thread nD τ).loc main_arg13) := by
  show StableHlo.after hostOps2 (W4 m ρ c) (Proc.devRef .tc main_arg13) = _
  after_results
  exact W4_arg13 m ρ c

/-! ## The first stretch: the edge lists, the neighbour sums of the features, the two bias rows -/

theorem W1_v1 : W1 m ρ c (Proc.devRef .tc main_v1) = (Cert.ReferenceIdeal.Stages.src (m ((c : Thread nD τ).loc main_arg1))) := by
  show StableHlo.after hostOps0 (W0 m ρ c) (Proc.devRef .tc main_v1) = _
  after_results
  rfl
theorem W1_v3 : W1 m ρ c (Proc.devRef .tc main_v3) = (Cert.ReferenceIdeal.Stages.dst (m ((c : Thread nD τ).loc main_arg1))) := by
  show StableHlo.after hostOps0 (W0 m ρ c) (Proc.devRef .tc main_v3) = _
  after_results
  rfl
theorem W1_v13 : W1 m ρ c (Proc.devRef .tc main_v13) = Cert.ReferenceIdeal.Stages.neighbours (m ((c : Thread nD τ).loc main_arg0)) (m ((c : Thread nD τ).loc main_arg1)) := by
  show StableHlo.after hostOps0 (W0 m ρ c) (Proc.devRef .tc main_v13) = _
  after_results
  rfl
theorem W1_v14 : W1 m ρ c (Proc.devRef .tc main_v14) = Cert.ReferenceIdeal.Stages.row64 (m ((c : Thread nD τ).loc main_arg4)) := by
  show StableHlo.after hostOps0 (W0 m ρ c) (Proc.devRef .tc main_v14) = _
  after_results
  exact Cert.ReferenceIdeal.Stages.row64_eq _ _
theorem W1_v15 : W1 m ρ c (Proc.devRef .tc main_v15) = Cert.ReferenceIdeal.Stages.row64 (m ((c : Thread nD τ).loc main_arg6)) := by
  show StableHlo.after hostOps0 (W0 m ρ c) (Proc.devRef .tc main_v15) = _
  after_results
  exact Cert.ReferenceIdeal.Stages.row64_eq _ _
theorem W2_v1 : W2 m ρ c (Proc.devRef .tc main_v1) = (Cert.ReferenceIdeal.Stages.src (m ((c : Thread nD τ).loc main_arg1))) :=
  (W2_of_ne m ρ c main_v1 (by decide)).trans (W1_v1 m ρ c)
theorem W2_v3 : W2 m ρ c (Proc.devRef .tc main_v3) = (Cert.ReferenceIdeal.Stages.dst (m ((c : Thread nD τ).loc main_arg1))) :=
  (W2_of_ne m ρ c main_v3 (by decide)).trans (W1_v3 m ρ c)

/-! ## The first call leaves the hidden features -/

theorem W2_v16 : W2 m ρ c (Proc.devRef .tc main_v16) = (Cert.ReferenceIdeal.Stages.hidden (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W2_arr m ρ c 6).trans ?_
  rw [Cert.KernelIdeal.Update0.array_after]
  unfold Cert.KernelIdeal.Update0.whole
  rw [show V1 m ρ c main_arg0 = _ from W1_arg0 m ρ c, show V1 m ρ c main_v13 = _ from W1_v13 m ρ c,
    show V1 m ρ c main_arg3 = _ from W1_arg3 m ρ c, show V1 m ρ c main_v14 = _ from W1_v14 m ρ c,
    show V1 m ρ c main_arg5 = _ from W1_arg5 m ρ c, show V1 m ρ c main_v15 = _ from W1_v15 m ρ c]
  exact (Cert.ReferenceIdeal.Stages.hidden_eq _ _ _ _ _ _).symm

/-! ## The second stretch: the neighbour sums of the hidden features, the two bias rows -/

theorem W3_v16 : W3 m ρ c (Proc.devRef .tc main_v16) = (Cert.ReferenceIdeal.Stages.hidden (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  show StableHlo.after hostOps1 (W2 m ρ c) (Proc.devRef .tc main_v16) = _
  after_results
  exact W2_v16 m ρ c
/-- The second stretch's neighbour sums, from ANY contents at its start: of the buffer the first call wrote, over the
    index vectors the first stretch left. -/
theorem stretch1_v26 (Vb : Valuation τ sig (Elt Ideal)) :
    StableHlo.after hostOps1 Vb (Proc.devRef .tc main_v26)
      = Cert.ReferenceIdeal.Stages.neighboursOf (Vb (Proc.devRef .tc main_v16)) (Vb (Proc.devRef .tc main_v1)) (Vb (Proc.devRef .tc main_v3)) := by
  after_results
  rfl
theorem W3_v26 : W3 m ρ c (Proc.devRef .tc main_v26) = Cert.ReferenceIdeal.Stages.neighbours (Cert.ReferenceIdeal.Stages.hidden (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg1)) := by
  show StableHlo.after hostOps1 (W2 m ρ c) (Proc.devRef .tc main_v26) = _
  rw [stretch1_v26, W2_v16 m ρ c, W2_v1 m ρ c, W2_v3 m ρ c]
  rfl
theorem W3_v27 : W3 m ρ c (Proc.devRef .tc main_v27) = Cert.ReferenceIdeal.Stages.row64 (m ((c : Thread nD τ).loc main_arg8)) := by
  show StableHlo.after hostOps1 (W2 m ρ c) (Proc.devRef .tc main_v27) = _
  after_results
  rw [W2_arg8 m ρ c]
  exact Cert.ReferenceIdeal.Stages.row64_eq _ _
theorem W3_v28 : W3 m ρ c (Proc.devRef .tc main_v28) = Cert.ReferenceIdeal.Stages.row64 (m ((c : Thread nD τ).loc main_arg10)) := by
  show StableHlo.after hostOps1 (W2 m ρ c) (Proc.devRef .tc main_v28) = _
  after_results
  rw [W2_arg10 m ρ c]
  exact Cert.ReferenceIdeal.Stages.row64_eq _ _

/-! ## The second call leaves the embedding -/

theorem W4_v29 : W4 m ρ c (Proc.devRef .tc main_v29) = (Cert.ReferenceIdeal.Stages.embedding (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W4_arr m ρ c 6).trans ?_
  rw [Cert.KernelIdeal.Update1.array_after]
  unfold Cert.KernelIdeal.Update1.whole
  rw [show V3 m ρ c main_v16 = _ from W3_v16 m ρ c, show V3 m ρ c main_v26 = _ from W3_v26 m ρ c,
    show V3 m ρ c main_arg7 = _ from W3_arg7 m ρ c, show V3 m ρ c main_v27 = _ from W3_v27 m ρ c,
    show V3 m ρ c main_arg9 = _ from W3_arg9 m ρ c, show V3 m ρ c main_v28 = _ from W3_v28 m ρ c]
  exact (Cert.ReferenceIdeal.Stages.embedding_eq _ _ _ _ _ _ _ _ _ _).symm

/-! ## The third stretch: the pooled features, the two bias rows -/

theorem W5_v29 : W5 m ρ c (Proc.devRef .tc main_v29) = (Cert.ReferenceIdeal.Stages.embedding (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show StableHlo.after hostOps2 (W4 m ρ c) (Proc.devRef .tc main_v29) = _
  after_results
  exact W4_v29 m ρ c
/-- The third stretch's pooled features, from ANY contents at its start: of the buffer the second call wrote and the
    batch vector. -/
theorem stretch2_v43 (Vb : Valuation τ sig (Elt Ideal)) :
    StableHlo.after hostOps2 Vb (Proc.devRef .tc main_v43)
      = Cert.ReferenceIdeal.Stages.pooled (Vb (Proc.devRef .tc main_v29)) (Vb (Proc.devRef .tc main_arg2)) := by
  after_results_simp
  rfl
theorem W5_v43 : W5 m ρ c (Proc.devRef .tc main_v43) = (Cert.ReferenceIdeal.Stages.pooled (Cert.ReferenceIdeal.Stages.embedding (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2))) := by
  show StableHlo.after hostOps2 (W4 m ρ c) (Proc.devRef .tc main_v43) = _
  rw [stretch2_v43, W4_v29 m ρ c, W4_arg2 m ρ c]
theorem W5_v44 : W5 m ρ c (Proc.devRef .tc main_v44) = Cert.ReferenceIdeal.Stages.row64 (m ((c : Thread nD τ).loc main_arg12)) := by
  show StableHlo.after hostOps2 (W4 m ρ c) (Proc.devRef .tc main_v44) = _
  after_results
  rw [W4_arg12 m ρ c]
  exact Cert.ReferenceIdeal.Stages.row64_eq _ _
theorem W5_v45 : W5 m ρ c (Proc.devRef .tc main_v45) = Cert.ReferenceIdeal.Stages.row32 (m ((c : Thread nD τ).loc main_arg14)) := by
  show StableHlo.after hostOps2 (W4 m ρ c) (Proc.devRef .tc main_v45) = _
  after_results
  rw [W4_arg14 m ρ c]
  exact Cert.ReferenceIdeal.Stages.row32_eq _ _

/-! ## The third call leaves the scores; the embedding is still there -/

theorem W6_v46 : W6 m ρ c (Proc.devRef .tc main_v46) = (Cert.ReferenceIdeal.Stages.scores (Cert.ReferenceIdeal.Stages.pooled (Cert.ReferenceIdeal.Stages.embedding (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2))) (m ((c : Thread nD τ).loc main_arg11)) (m ((c : Thread nD τ).loc main_arg12)) (m ((c : Thread nD τ).loc main_arg13)) (m ((c : Thread nD τ).loc main_arg14))) := by
  refine (W6_arr m ρ c 5).trans ?_
  rw [Cert.KernelIdeal.Head.array_after]
  unfold Cert.KernelIdeal.Head.whole Cert.KernelIdeal.Head.head
  rw [show V5 m ρ c main_v43 = _ from W5_v43 m ρ c, show V5 m ρ c main_arg11 = _ from W5_arg11 m ρ c,
    show V5 m ρ c main_v44 = _ from W5_v44 m ρ c, show V5 m ρ c main_arg13 = _ from W5_arg13 m ρ c,
    show V5 m ρ c main_v45 = _ from W5_v45 m ρ c]
  exact Cert.SoftmaxHead.kernelHead_eq_hostHead _ _ _ _ _ _ _ _ _ _ _ _ _ _ _ _ _ _ _

theorem W6_v29 : W6 m ρ c (Proc.devRef .tc main_v29) = (Cert.ReferenceIdeal.Stages.embedding (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (W6_of_ne m ρ c main_v29 (by decide)).trans (W5_v29 m ρ c)

/-- The run with its results read: the embedding and the class scores are the reference's stages of the launch
    arguments, and the arguments end as launched. -/
theorem run_stages (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v29) = (Cert.ReferenceIdeal.Stages.embedding (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
      ∧ r.2.mem ((c.tc : Thread nD τ).loc main_v46) = (Cert.ReferenceIdeal.Stages.scores (Cert.ReferenceIdeal.Stages.pooled (Cert.ReferenceIdeal.Stages.embedding (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2))) (m ((c : Thread nD τ).loc main_arg11)) (m ((c : Thread nD τ).loc main_arg12)) (m ((c : Thread nD τ).loc main_arg13)) (m ((c : Thread nD τ).loc main_arg14)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (W6_v29 m ρ c), (h c).2.1.trans (W6_v46 m ρ c), (h c).2.2⟩) (run m ρ)

end Cert.KernelIdeal.Results

end
-- ==== Proof.RefValue.lean ====
/-
  The idealized reference's run with its two results read as the stages of Proof/Stages.lean.

  The reference's @main is one straight line of host operations; its run ends with each result at the operations'
  composed term of the arguments. That term, unfolded, IS the stage functions
  unfolded: the same operations in the same order on the same arguments, so the two are equal by definition.
-/
import proofs.«141180_j51711406244137_2_alg».proof.Proof.RefRunPatched
import proofs.«141180_j51711406244137_2_alg».proof.Proof.Stages

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo

set_option maxRecDepth 400000 in
/-- The first result's composed term is the embedding of the arguments. -/
theorem embedding_term (m : (ℓ : Loc nD τ sig) → Buf (Elt Ideal) ℓ) (c : Dev nD) :
    res_main_v51 (F := Ideal) m c = (Cert.ReferenceIdeal.Stages.embedding (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  unfold res_main_v51
  rfl

set_option maxRecDepth 400000 in
/-- The second result's composed term is the class scores of the pooled embedding. -/
theorem scores_term (m : (ℓ : Loc nD τ sig) → Buf (Elt Ideal) ℓ) (c : Dev nD) :
    res_main_v74 (F := Ideal) m c = (Cert.ReferenceIdeal.Stages.scores (Cert.ReferenceIdeal.Stages.pooled (Cert.ReferenceIdeal.Stages.embedding (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg2))) (m ((c.tc : Thread nD τ).loc main_arg11)) (m ((c.tc : Thread nD τ).loc main_arg12)) (m ((c.tc : Thread nD τ).loc main_arg13)) (m ((c.tc : Thread nD τ).loc main_arg14))) := by
  unfold res_main_v74
  rfl

/-- The reference's run with its results read: the embedding and the class scores of the launch arguments, the
    arguments as launched. -/
theorem run_stages (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v51) = (Cert.ReferenceIdeal.Stages.embedding (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_v74) = (Cert.ReferenceIdeal.Stages.scores (Cert.ReferenceIdeal.Stages.pooled (Cert.ReferenceIdeal.Stages.embedding (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg2))) (m ((c.tc : Thread nD τ).loc main_arg11)) (m ((c.tc : Thread nD τ).loc main_arg12)) (m ((c.tc : Thread nD τ).loc main_arg13)) (m ((c.tc : Thread nD τ).loc main_arg14)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (embedding_term m c), (h c).2.1.trans (scores_term m c), (h c).2.2⟩)
    (Cert.ReferenceIdeal.ValueP.run (F := Ideal) m ρ)

end Cert.ReferenceIdeal.RefValue

end
-- ==== Proof.lean ====
/-
  Two graph-convolution layers, a mean pool per graph and a classifier head: the kernel against its jnp reference, over
  the extended reals.

  Both programs gather every edge's source row, sum the gathered rows at the edge's target node, and update each node
  from its own row and that sum through two dense layers (clamped between them, and after the first update); they do
  this twice, average the clamped result over the nodes of each graph, and apply two more dense layers and the logarithm
  of the softmax. The kernel does the gathers, sums and the average with host operations, exactly as the reference
  does, and hands the dense parts to three kernel calls: two that walk the nodes in blocks of 2000 rows, one that takes
  the pooled features whole.

  * A node's update reads the node's own rows only, so each block of 2000 rows is the restriction of one function of the
    whole arrays, and the fifty blocks tile the array (Proof/Update0.lean, Proof/Update1.lean, over Proof/LibNodeUpdate.lean).
  * A kernel's matrix product into a zero matrix and the host's contraction are the same sum over the contracted axis;
    a bias row repeated down the rows is the host's broadcast of it; the kernel's row maximum and row sum are the host's
    folds from the same starts; exponential and logarithm are the same interpreted functions (Proof/LibNodeUpdate.lean,
    Proof/LibSoftmaxHead.lean). None of this uses a law of arithmetic, so nothing is asked of the inputs: the precondition
    is never opened, and the equalities hold at the infinities too.
  * So the buffers of the kernel's @main, followed from boundary to boundary, hold the reference's stages
    (Proof/KernelValue.lean), and the reference's own run ends at those stages (Proof/RefValue.lean).

  The three frames: the two kernels' are the generated frame certificates; the reference's is its run with the results
  dropped. The idealization rewrote nothing, so `preserves` is `True`.
-/
import proofs.«141180_j51711406244137_2_alg».proof.Defs
import proofs.«141180_j51711406244137_2_alg».proof.Proof.Gen.Kernel
import proofs.«141180_j51711406244137_2_alg».proof.Proof.Gen.Kernel.Frame
import proofs.«141180_j51711406244137_2_alg».proof.Proof.Gen.KernelIdeal
import proofs.«141180_j51711406244137_2_alg».proof.Proof.Gen.KernelIdeal.Frame
import proofs.«141180_j51711406244137_2_alg».proof.Proof.Gen.ReferenceIdeal
import proofs.«141180_j51711406244137_2_alg».proof.Proof.Gen.Pre_finite_inputs
import proofs.«141180_j51711406244137_2_alg».proof.Proof.KernelValue
import proofs.«141180_j51711406244137_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says of the results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Both idealized programs end with the embedding and the class scores at the reference's stages of the arguments;
    the two memories agree on the arguments, so the stages are of the same arrays. -/
theorem algebraic : Cert.algebraic_KernelIdeal_ReferenceIdeal := by
  intro m ρ m' ρ' _ hagree
  refine ⟨_, _, Cert.KernelIdeal.Results.run_stages m ρ, ?_⟩
  refine (θ_run Cert.ReferenceIdeal.defs _ _).mono (fun r h c => ?_) (Cert.ReferenceIdeal.RefValue.run_stages m' ρ')
  obtain ⟨e0, e1, e2, e3, e4, e5, e6, e7, e8, e9, e10, e11, e12, e13, e14⟩ := hagree c
  refine ⟨(h c).1.trans ?_, (h c).2.1.trans ?_, (h c).2.2⟩
  · rw [e0, e1, e3, e4, e5, e6, e7, e8, e9, e10]
  · rw [e0, e1, e3, e4, e5, e6, e7, e8, e9, e10, e2, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
